-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S2x1600000 : Shape := ⟨2, ![2, 1600000]⟩
abbrev S1x128 : Shape := ⟨2, ![1, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩

class Facts : Prop where
  bcast_S_S100000x1 : S_.BroadcastsInDim S100000x1 (![] : Fin 0 → Fin S100000x1.rank)
  reducesTo_S100000x1_S_d0_1 : S100000x1.ReducesTo [0, 1] S_
  h_S_ : 0 < S_.numel
  bcast_S_S1x128 : S_.BroadcastsInDim S1x128 (![] : Fin 0 → Fin S1x128.rank)
  reducesTo_S1x128_S_d0_1 : S1x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S128x64 .f32) (main_arg9 : FVec F S64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S128 .f32) (main_arg6 : FVec F S128x128 .f32) (main_arg7 : FVec F S128 .f32) (main_arg8 : FVec F S128x64 .f32) (main_arg9 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S100000x1 .f32) (main_arg1 : IVec S2x1600000 32) (main_arg2 : FVec F S1x128 .f32) (main_arg3 : FVec F S128 .f32) (main_arg4 : FVec F S128x128 .f32) (main_arg5 : FVec F S128 .f32) (main_arg6 : FVec F S128x128 .f32) (main_arg7 : FVec F S128 .f32) (main_arg8 : FVec F S128x64 .f32) (main_arg9 : FVec F S64 .f32) : IVec S_ 1 :=
  let main_v0 : FVec F S100000x1 .f32 := Host.absf main_arg0
  let main_cst : FVec F S_ .f32 := constant S_ .f32 0x7F800000#32
  let main_v1 : FVec F S100000x1 .f32 := broadcastInDim S100000x1 ![] bcast_S_S100000x1 main_cst
  let main_v2 : IVec S100000x1 1 := cmpf .olt main_v0 main_v1
  let main_c : IVec S_ 1 := constantI S_ 1 1#1
  let main_v3 : IVec S_ 1 := (fun x v => Host.reduce IntOp.andi x v reducesTo_S100000x1_S_d0_1 h_S_) main_v2 main_c
  let main_v4 : FVec F S1x128 .f32 := Host.absf main_arg2
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_c_1 : IVec S_ 1 := constantI S_ 1 1#1
  let main_v7 : IVec S_ 1 := (fun x v => Host.reduce IntOp.andi x v reducesTo_S1x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S100000x1 : Shape := ⟨2, ![100000, 1]⟩
abbrev S2x1600000 : Shape := ⟨2, ![2, 1600000]⟩
abbrev S1x128 : Shape := ⟨2, ![1, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S5000x1 : Shape := ⟨2, ![5000, 1]⟩
abbrev S5000x128 : Shape := ⟨2, ![5000, 128]⟩
abbrev S1700000x128 : Shape := ⟨2, ![1700000, 128]⟩
abbrev S1x64 : Shape := ⟨2, ![1, 64]⟩
abbrev S100000x64 : Shape := ⟨2, ![100000, 64]⟩
abbrev S5000x64 : Shape := ⟨2, ![5000, 64]⟩

abbrev nBuf : Space → Nat
  | .hbm => 112
  | .vmem => 36
  | .smem => 0
  | _ => 0

abbrev bufTy : (tb : Table) → Fin (tcTables nBuf tb) → BufTy
  | .hbm, ⟨0, _⟩ => ⟨S100000x1, .f32⟩
  | .hbm, ⟨1, _⟩ => ⟨S2x1600000, .i32⟩
  | .hbm, ⟨2, _⟩ => ⟨S1x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000, .f32⟩
  | .hbm, ⟨52, _⟩ => ⟨S1700000, .f32⟩
  | .hbm, ⟨53, _⟩ => ⟨S100000x128, .f32⟩
  | .hbm, ⟨54, _⟩ => ⟨S_, .i32⟩
  | .hbm, ⟨55, _⟩ => ⟨S1700000, .i32⟩
  | .hbm, ⟨56, _⟩ => ⟨S1700000, .i1⟩
  | .hbm, ⟨57, _⟩ => ⟨S_, .i32⟩
  | .hbm, ⟨58, _⟩ => ⟨S1700000, .i32⟩
  | .hbm, ⟨59, _⟩ => ⟨S1700000, .i32⟩
  | .hbm, ⟨60, _⟩ => ⟨S1700000, .i32⟩
  | .hbm, ⟨61, _⟩ => ⟨S1700000x1, .i32⟩
  | .hbm, ⟨62, _⟩ => ⟨S1700000x128, .f32⟩
  | .hbm, ⟨63, _⟩ => ⟨S1700000x1, .f32⟩
  | .hbm, ⟨64, _⟩ => ⟨S1700000x128, .f32⟩
  | .hbm, ⟨65, _⟩ => ⟨S1700000x128, .f32⟩
  | .hbm, ⟨66, _⟩ => ⟨S_, .f32⟩
  | .hbm, ⟨67, _⟩ => ⟨S100000x128, .f32⟩
  | .hbm, ⟨68, _⟩ => ⟨S1700000x1, .i32⟩
  | .hbm, ⟨69, _⟩ => ⟨S100000x128, .f32⟩
  | .hbm, ⟨70, _⟩ => ⟨S1x128, .f32⟩
  | .hbm, ⟨71, _⟩ => ⟨S100000x128, .f32⟩
  | .hbm, ⟨72, _⟩ => ⟨S100000x128, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x128, .f32⟩
  | .hbm, ⟨82, _⟩ => ⟨S1700000x1, .f32⟩
  | .hbm, ⟨83, _⟩ => ⟨S1700000x128, .f32⟩
  | .hbm, ⟨84, _⟩ => ⟨S1700000x128, .f32⟩
  | .hbm, ⟨85, _⟩ => ⟨S_, .f32⟩
  | .hbm, ⟨86, _⟩ => ⟨S100000x128, .f32⟩
  | .hbm, ⟨87, _⟩ => ⟨S1700000x1, .i32⟩
  | .hbm, ⟨88, _⟩ => ⟨S100000x128, .f32⟩
  | .hbm, ⟨89, _⟩ => ⟨S1x128, .f32⟩
  | .hbm, ⟨90, _⟩ => ⟨S100000x128, .f32⟩
  | .hbm, ⟨91, _⟩ => ⟨S100000x128, .f32⟩
  | .hbm, ⟨92, _⟩ => ⟨S_, .i32⟩
  | .hbm, ⟨93, _⟩ => ⟨S1700000, .i32⟩
  | .hbm, ⟨94, _⟩ => ⟨S1700000, .i1⟩
  | .hbm, ⟨95, _⟩ => ⟨S_, .i32⟩
  | .hbm, ⟨96, _⟩ => ⟨S1700000, .i32⟩
  | .hbm, ⟨97, _⟩ => ⟨S1700000, .i32⟩
  | .hbm, ⟨98, _⟩ => ⟨S1700000, .i32⟩
  | .hbm, ⟨99, _⟩ => ⟨S1700000x1, .i32⟩
  | .hbm, ⟨100, _⟩ => ⟨S1700000x128, .f32⟩
  | .hbm, ⟨101, _⟩ => ⟨S1700000x1, .f32⟩
  | .hbm, ⟨102, _⟩ => ⟨S1700000x128, .f32⟩
  | .hbm, ⟨103, _⟩ => ⟨S1700000x128, .f32⟩
  | .hbm, ⟨104, _⟩ => ⟨S_, .f32⟩
  | .hbm, ⟨105, _⟩ => ⟨S100000x128, .f32⟩
  | .hbm, ⟨106, _⟩ => ⟨S1700000x1, .i32⟩
  | .hbm, ⟨107, _⟩ => ⟨S100000x128, .f32⟩
  | .hbm, ⟨108, _⟩ => ⟨S1x128, .f32⟩
  | .hbm, ⟨109, _⟩ => ⟨S100000x128, .f32⟩
  | .hbm, ⟨110, _⟩ => ⟨S1x64, .f32⟩
  | .hbm, ⟨111, _⟩ => ⟨S100000x64, .f32⟩
  | .local _ .vmem, ⟨0, _⟩ => ⟨S5000x1, .f32⟩
  | .local _ .vmem, ⟨1, _⟩ => ⟨S5000x1, .f32⟩
  | .local _ .vmem, ⟨2, _⟩ => ⟨S1x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S128x64, .f32⟩
  | .local _ .vmem, ⟨33, _⟩ => ⟨S1x64, .f32⟩
  | .local _ .vmem, ⟨34, _⟩ => ⟨S5000x64, .f32⟩
  | .local _ .vmem, ⟨35, _⟩ => ⟨S5000x64, .f32⟩
  | _, _ => ⟨S100000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_c_10 : Ref sig .tc := ⟨.hbm, 73, rfl⟩
abbrev main_v49 : Ref sig .tc := ⟨.hbm, 74, rfl⟩
abbrev main_v50 : Ref sig .tc := ⟨.hbm, 75, rfl⟩
abbrev main_c_11 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_12 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_13 : Ref sig .tc := ⟨.hbm, 92, rfl⟩
abbrev main_v65 : Ref sig .tc := ⟨.hbm, 93, rfl⟩
abbrev main_v66 : Ref sig .tc := ⟨.hbm, 94, rfl⟩
abbrev main_c_14 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_15 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg3_0 : Ref sig .tc := ⟨.vmem, 34, rfl⟩
abbrev cc6_stg3_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem3_0 : DmaSem sig := 34
abbrev cc6_sem3_1 : DmaSem sig := 35

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x1_S5000x1_0_0 : ∀ a, (![0, 0] : Fin 2 → Nat) a + S5000x1.size a ≤ S5000x1.size a
  h_S5000x1 : 0 < S5000x1.numel
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  inb_S5000x128_S5000x128_0_0 : ∀ a, (![0, 0] : Fin 2 → Nat) a + S5000x128.size a ≤ S5000x128.size a
  h_S5000x128 : 0 < S5000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x1_S1x128_S5000x128_1_0_0_1_n_n_wf : DotDims.WF S5000x1 S1x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x1.size a ≤ S100000x1.size a
  hwx0_0 : ∀ i : grid0.Coords, EltTy.bits .f32 = 32 ∨ (Rect.block (s := S100000x1) S5000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S100000x128.size a
  hwx5_2 : ∀ i : grid5.Coords, EltTy.bits .f32 = 32 ∨ (Rect.block (s := S100000x128) S5000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .f32 = 32 ∨ (Rect.block (s := S128x64) S128x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x64.size a ≤ S100000x64.size a
  hwx6_3 : ∀ i : grid6.Coords, EltTy.bits .f32 = 32 ∨ (Rect.block (s := S100000x64) S5000x64.size (cc6_transform_3 i) (hinb6_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x1_S1x128_S5000x128_1_0_0_1_n_n : DotDims S5000x1 S1x128 S5000x128 where
  lhsContracting := [1]
  rhsContracting := [0]
  lhsNonContracting := [0]
  rhsNonContracting := [1]
  lhsBatch := []
  rhsBatch := []
  wf := dot_S5000x1_S1x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v63) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v77) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v78) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v79) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v79) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S128x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v80) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v81) S5000x64.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S100000x1 : Shape := ⟨2, ![100000, 1]⟩
abbrev S2x1600000 : Shape := ⟨2, ![2, 1600000]⟩
abbrev S1x128 : Shape := ⟨2, ![1, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S100000x64 : Shape := ⟨2, ![100000, 64]⟩
abbrev S1x64 : Shape := ⟨2, ![1, 64]⟩

abbrev nBuf : Space → Nat
  | .hbm => 161
  | .vmem => 0
  | .smem => 0
  | _ => 0

abbrev hbmTy0_0 (i : Nat) : BufTy := match i % 128 with
  | 0 => ⟨S100000x1, .f32⟩
  | 1 => ⟨S2x1600000, .i32⟩
  | 2 => ⟨S1x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x64, .f32⟩
  | 9 => ⟨S64, .f32⟩
  | 10 => ⟨S100000, .i32⟩
  | 11 => ⟨S1x1600000, .i32⟩
  | 12 => ⟨S1600000, .i32⟩
  | 13 => ⟨S1700000, .i32⟩
  | 14 => ⟨S1x1600000, .i32⟩
  | 15 => ⟨S1600000, .i32⟩
  | 16 => ⟨S1700000, .i32⟩
  | 17 => ⟨S_, .f32⟩
  | 18 => ⟨S1700000, .f32⟩
  | 19 => ⟨S_, .f32⟩
  | 20 => ⟨S100000, .f32⟩
  | 21 => ⟨S1700000x1, .i32⟩
  | 22 => ⟨S100000, .f32⟩
  | 23 => ⟨S_, .f32⟩
  | 24 => ⟨S100000, .f32⟩
  | 25 => ⟨S100000, .i1⟩
  | 26 => ⟨S_, .f32⟩
  | 27 => ⟨S100000, .f32⟩
  | 28 => ⟨S100000, .f32⟩
  | 29 => ⟨S100000, .f32⟩
  | 30 => ⟨S_, .f32⟩
  | 31 => ⟨S_, .f32⟩
  | 32 => ⟨S100000, .f32⟩
  | 33 => ⟨S100000, .f32⟩
  | 34 => ⟨S100000x128, .f32⟩
  | 35 => ⟨S_, .i32⟩
  | 36 => ⟨S1700000, .i32⟩
  | 37 => ⟨S1700000, .i1⟩
  | 38 => ⟨S_, .i32⟩
  | 39 => ⟨S1700000, .i32⟩
  | 40 => ⟨S1700000, .i32⟩
  | 41 => ⟨S1700000, .i32⟩
  | 42 => ⟨S1700000x1, .i32⟩
  | 43 => ⟨S1700000, .f32⟩
  | 44 => ⟨S_, .i32⟩
  | 45 => ⟨S1700000, .i32⟩
  | 46 => ⟨S1700000, .i1⟩
  | 47 => ⟨S_, .i32⟩
  | 48 => ⟨S1700000, .i32⟩
  | 49 => ⟨S1700000, .i32⟩
  | 50 => ⟨S1700000, .i32⟩
  | 51 => ⟨S1700000x1, .i32⟩
  | 52 => ⟨S1700000, .f32⟩
  | 53 => ⟨S1700000, .f32⟩
  | 54 => ⟨S_, .i32⟩
  | 55 => ⟨S1700000, .i32⟩
  | 56 => ⟨S1700000, .i1⟩
  | 57 => ⟨S_, .i32⟩
  | 58 => ⟨S1700000, .i32⟩
  | 59 => ⟨S1700000, .i32⟩
  | 60 => ⟨S1700000, .i32⟩
  | 61 => ⟨S1700000x1, .i32⟩
  | 62 => ⟨S1700000x128, .f32⟩
  | 63 => ⟨S1700000x1, .f32⟩
  | 64 => ⟨S1700000x128, .f32⟩
  | 65 => ⟨S1700000x128, .f32⟩
  | 66 => ⟨S_, .f32⟩
  | 67 => ⟨S100000x128, .f32⟩
  | 68 => ⟨S1700000x1, .i32⟩
  | 69 => ⟨S100000x128, .f32⟩
  | 70 => ⟨S1x128, .f32⟩
  | 71 => ⟨S100000x128, .f32⟩
  | 72 => ⟨S100000x128, .f32⟩
  | 73 => ⟨S_, .f32⟩
  | 74 => ⟨S100000x128, .f32⟩
  | 75 => ⟨S100000x128, .f32⟩
  | 76 => ⟨S100000x128, .f32⟩
  | 77 => ⟨S_, .i32⟩
  | 78 => ⟨S1700000, .i32⟩
  | 79 => ⟨S1700000, .i1⟩
  | 80 => ⟨S_, .i32⟩
  | 81 => ⟨S1700000, .i32⟩
  | 82 => ⟨S1700000, .i32⟩
  | 83 => ⟨S1700000, .i32⟩
  | 84 => ⟨S1700000x1, .i32⟩
  | 85 => ⟨S1700000, .f32⟩
  | 86 => ⟨S_, .i32⟩
  | 87 => ⟨S1700000, .i32⟩
  | 88 => ⟨S1700000, .i1⟩
  | 89 => ⟨S_, .i32⟩
  | 90 => ⟨S1700000, .i32⟩
  | 91 => ⟨S1700000, .i32⟩
  | 92 => ⟨S1700000, .i32⟩
  | 93 => ⟨S1700000x1, .i32⟩
  | 94 => ⟨S1700000, .f32⟩
  | 95 => ⟨S1700000, .f32⟩
  | 96 => ⟨S_, .i32⟩
  | 97 => ⟨S1700000, .i32⟩
  | 98 => ⟨S1700000, .i1⟩
  | 99 => ⟨S_, .i32⟩
  | 100 => ⟨S1700000, .i32⟩
  | 101 => ⟨S1700000, .i32⟩
  | 102 => ⟨S1700000, .i32⟩
  | 103 => ⟨S1700000x1, .i32⟩
  | 104 => ⟨S1700000x128, .f32⟩
  | 105 => ⟨S1700000x1, .f32⟩
  | 106 => ⟨S1700000x128, .f32⟩
  | 107 => ⟨S1700000x128, .f32⟩
  | 108 => ⟨S_, .f32⟩
  | 109 => ⟨S100000x128, .f32⟩
  | 110 => ⟨S1700000x1, .i32⟩
  | 111 => ⟨S100000x128, .f32⟩
  | 112 => ⟨S1x128, .f32⟩
  | 113 => ⟨S100000x128, .f32⟩
  | 114 => ⟨S100000x128, .f32⟩
  | 115 => ⟨S_, .f32⟩
  | 116 => ⟨S100000x128, .f32⟩
  | 117 => ⟨S100000x128, .f32⟩
  | 118 => ⟨S100000x128, .f32⟩
  | 119 => ⟨S_, .i32⟩
  | 120 => ⟨S1700000, .i32⟩
  | 121 => ⟨S1700000, .i1⟩
  | 122 => ⟨S_, .i32⟩
  | 123 => ⟨S1700000, .i32⟩
  | 124 => ⟨S1700000, .i32⟩
  | 125 => ⟨S1700000, .i32⟩
  | 126 => ⟨S1700000x1, .i32⟩
  | 127 => ⟨S1700000, .f32⟩
  | _ => ⟨S100000x1, .f32⟩

abbrev hbmTy0_1 (i : Nat) : BufTy := match i % 128 with
  | 0 => ⟨S_, .i32⟩
  | 1 => ⟨S1700000, .i32⟩
  | 2 => ⟨S1700000, .i1⟩
  | 3 => ⟨S_, .i32⟩
  | 4 => ⟨S1700000, .i32⟩
  | 5 => ⟨S1700000, .i32⟩
  | 6 => ⟨S1700000, .i32⟩
  | 7 => ⟨S1700000x1, .i32⟩
  | 8 => ⟨S1700000, .f32⟩
  | 9 => ⟨S1700000, .f32⟩
  | 10 => ⟨S_, .i32⟩
  | 11 => ⟨S1700000, .i32⟩
  | 12 => ⟨S1700000, .i1⟩
  | 13 => ⟨S_, .i32⟩
  | 14 => ⟨S1700000, .i32⟩
  | 15 => ⟨S1700000, .i32⟩
  | 16 => ⟨S1700000, .i32⟩
  | 17 => ⟨S1700000x1, .i32⟩
  | 18 => ⟨S1700000x128, .f32⟩
  | 19 => ⟨S1700000x1, .f32⟩
  | 20 => ⟨S1700000x128, .f32⟩
  | 21 => ⟨S1700000x128, .f32⟩
  | 22 => ⟨S_, .f32⟩
  | 23 => ⟨S100000x128, .f32⟩
  | 24 => ⟨S1700000x1, .i32⟩
  | 25 => ⟨S100000x128, .f32⟩
  | 26 => ⟨S1x128, .f32⟩
  | 27 => ⟨S100000x128, .f32⟩
  | 28 => ⟨S100000x128, .f32⟩
  | 29 => ⟨S100000x64, .f32⟩
  | 30 => ⟨S1x64, .f32⟩
  | 31 => ⟨S100000x64, .f32⟩
  | 32 => ⟨S100000x64, .f32⟩
  | _ => ⟨S100000x1, .f32⟩

abbrev hbmTy (i : Nat) : BufTy := match i / 128 with
  | 0 => hbmTy0_0 i
  | 1 => hbmTy0_1 i
  | _ => ⟨S100000x1, .f32⟩

abbrev bufTy : (tb : Table) → Fin (tcTables nBuf tb) → BufTy
  | .hbm, ⟨i, _⟩ => hbmTy i
  | _, _ => ⟨S100000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_v17 : Ref sig .tc := ⟨.hbm, 34, rfl⟩
abbrev main_c : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_c_6 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_call1_cst : Ref sig .tc := ⟨.hbm, 73, rfl⟩
abbrev main_call1_v0 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_c_11 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_c_12 : Ref sig .tc := ⟨.hbm, 86, rfl⟩
abbrev main_v58 : Ref sig .tc := ⟨.hbm, 87, rfl⟩
abbrev main_v59 : Ref sig .tc := ⟨.hbm, 88, rfl⟩
abbrev main_c_13 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_c_14 : Ref sig .tc := ⟨.hbm, 96, rfl⟩
abbrev main_v66 : Ref sig .tc := ⟨.hbm, 97, rfl⟩
abbrev main_v67 : Ref sig .tc := ⟨.hbm, 98, rfl⟩
abbrev main_c_15 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_cst_16 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_call2_cst : Ref sig .tc := ⟨.hbm, 115, rfl⟩
abbrev main_call2_v0 : Ref sig .tc := ⟨.hbm, 116, rfl⟩
abbrev main_v82 : Ref sig .tc := ⟨.hbm, 117, rfl⟩
abbrev main_v83 : Ref sig .tc := ⟨.hbm, 118, rfl⟩
abbrev main_c_17 : Ref sig .tc := ⟨.hbm, 119, rfl⟩
abbrev main_v84 : Ref sig .tc := ⟨.hbm, 120, rfl⟩
abbrev main_v85 : Ref sig .tc := ⟨.hbm, 121, rfl⟩
abbrev main_c_18 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_c_19 : Ref sig .tc := ⟨.hbm, 128, rfl⟩
abbrev main_v91 : Ref sig .tc := ⟨.hbm, 129, rfl⟩
abbrev main_v92 : Ref sig .tc := ⟨.hbm, 130, rfl⟩
abbrev main_c_20 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_c_21 : Ref sig .tc := ⟨.hbm, 138, rfl⟩
abbrev main_v99 : Ref sig .tc := ⟨.hbm, 139, rfl⟩
abbrev main_v100 : Ref sig .tc := ⟨.hbm, 140, rfl⟩
abbrev main_c_22 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_cst_23 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  dot_S100000x1_S1x128_S100000x128_1_0_0_1_n_n_wf : DotDims.WF S100000x1 S1x128 S100000x128 [1] [0] [0] [1] [] []
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x1_S1x128_S100000x128_1_0_0_1_n_n : DotDims S100000x1 S1x128 S100000x128 where
  lhsContracting := [1]
  rhsContracting := [0]
  lhsNonContracting := [0]
  rhsNonContracting := [1]
  lhsBatch := []
  rhsBatch := []
  wf := dot_S100000x1_S1x128_S100000x128_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
/-
  The idealized kernel program's run with its result named. The program is seven pipelined kernel launches among
  stretches of host operations; every weakly fair execution ends, and the result array then holds what the last
  launch's write-backs leave (the contents at the last boundary of the fold through the program), the ten argument
  arrays being as launched.
-/
import proofs.«141334_j10161892622615_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends with the result array at the last boundary's contents and the
    arguments unchanged: the segments' run, the last thread state read against the final state. -/
theorem run_named : θ_run defs (onTc (τ := τ) (main (F := F))) ⟨m, fun _ => 0, ρ⟩ (fun r => ∀ c : Dev nD,
      r.2.mem ((c.tc : Thread nD τ).loc main_v81) = W14 m ρ c (Proc.devRef .tc main_v81)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v81 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c)⟩)

end Cert.KernelIdeal.RunValue

end
-- ==== Proof.LibPlainDot.lean ====
/-
  A plain matrix product read at an entry. For the dimension numbers of an [M, K] by [K, N] product (no batch axis,
  the left operand contracted on its last axis and the right on its first) the entry (p, q) of the product is
  ∑ₖ l(p, k) · r(k, q) over k : Fin K — for a tpu.matmul into the zero accumulator and for the host's dot_general alike,
  at the ideal values. General in the three extents and in the operands' formats; a printed record of these dimension
  numbers is DotDims.plain M K N up to the proof it carries, so it is passed with the equation (by rfl).
-/
import Idealize.ShloMosaic.PureOps.Ideal.Laws
import Idealize.ShloMosaic.Lib.ValueIdx

namespace Idealize.ShloMosaic.ValueIdx

/-- The left operand's row is the output's row, whatever the contraction index. -/
theorem plain_lhs_row {M K N : ℕ} (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand's column is the output's column, whatever the contraction index. -/
theorem plain_rhs_col {M K N : ℕ} (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The left operand's index at output (p, q) and contraction coordinate k is (p, k). -/
theorem plain_lhsIdx {M K N : ℕ} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a; apply Fin.ext
  match a with
  | ⟨0, _⟩ => exact plain_lhs_row (ix2 p q) _
  | ⟨1, _⟩ => exact ((DotDims.plain M K N).lhsIdx_val_of_single (cl := (1 : Fin 2)) rfl (ix2 p q) _).trans hk

/-- The right operand's index at output (p, q) and contraction coordinate k is (k, q). -/
theorem plain_rhsIdx {M K N : ℕ} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a; apply Fin.ext
  match a with
  | ⟨0, _⟩ => exact ((DotDims.plain M K N).rhsIdx_val_of_single (cr := (0 : Fin 2)) rfl (ix2 p q) _).trans hk
  | ⟨1, _⟩ => exact plain_rhs_col (ix2 p q) _

/-- The product's sum over the contraction index, re-indexed by the contracted coordinate. -/
theorem sum_plain {M K N : ℕ} (l : (⟨2, ![M, K]⟩ : Shape).Idx → EReal) (r : (⟨2, ![K, N]⟩ : Shape).Idx → EReal)
    (p : Fin M) (q : Fin N) :
    ∑ k : (DotDims.plain M K N).contr.Idx, l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  exact Finset.sum_congr rfl fun k _ => by rw [plain_lhsIdx, plain_rhsIdx]

/-- A tpu.matmul of these dimension numbers into the zero accumulator, at entry (p, q). -/
theorem matmul_plain_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  subst hd
  exact (Ideal.matmul_constant_zero_apply _ prec lhs rhs (ix2 p q)).trans (sum_plain lhs rhs p q)

/-- The host's dot_general of these dimension numbers, at entry (p, q). -/
theorem dotGeneral_plain_apply {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  subst hd
  exact (Ideal.dotGeneral_apply _ prec sched lhs rhs (ix2 p q)).trans (sum_plain lhs rhs p q)

end Idealize.ShloMosaic.ValueIdx
-- ==== Proof.Spec.lean ====
/-
  The layer arithmetic of the network, entry by entry on the extended reals: a matrix product as the sum over the
  contracted coordinate, a row of biases added to every row, and the positive part; and what a kernel body computes on
  one block of rows read at an entry (the block's product of its operands rounded to bf16, which at the ideal values
  is the product itself; the bias row laid along the block's rows).
-/
import Idealize.ShloMosaic.PureOps.Ideal.Laws
import Idealize.ShloMosaic.Lib.ValueIdx
import Idealize.ShloMosaic.Lib.ValueLayout
import Idealize.ShloMosaic.Lib.Pipeline.Value
import proofs.«141334_j10161892622615_1_alg».proof.Proof.LibPlainDot

noncomputable section

namespace Cert.Gcn

open Idealize.ShloMosaic Idealize.ShloMosaic.ValueIdx

/-- The product of an [M, K] matrix and a [K, N] matrix: entry (r, q) is the sum over k of x(r, k) · w(k, q). -/
def mm {M K N : ℕ} (x : FVec Ideal ⟨2, ![M, K]⟩ .f32) (w : FVec Ideal ⟨2, ![K, N]⟩ .f32) : FVec Ideal ⟨2, ![M, N]⟩ .f32 :=
  fun i => ∑ k : Fin K, x (ix2 (i 0) k) * w (ix2 k (i 1))

/-- A one-row array of biases added to every row: entry (r, q) is s(r, q) + b(0, q). -/
def addRow {M N : ℕ} (s : FVec Ideal ⟨2, ![M, N]⟩ .f32) (b : FVec Ideal ⟨2, ![1, N]⟩ .f32) : FVec Ideal ⟨2, ![M, N]⟩ .f32 :=
  fun i => FloatOps.addf (s i) (b (ix2 (0 : Fin 1) (i 1)))

/-- The positive part, entry by entry: the maximum with zero. -/
def relu {M N : ℕ} (s : FVec Ideal ⟨2, ![M, N]⟩ .f32) : FVec Ideal ⟨2, ![M, N]⟩ .f32 :=
  fun i => FloatOps.maximumf (s i) (FloatOps.ofBits .f32 0x00000000#32)

theorem mm_apply {M K N : ℕ} (x : FVec Ideal ⟨2, ![M, K]⟩ .f32) (w : FVec Ideal ⟨2, ![K, N]⟩ .f32) (r : Fin M) (q : Fin N) :
    mm x w (ix2 r q) = ∑ k : Fin K, x (ix2 r k) * w (ix2 k q) := rfl

/-- A block's product of its two operands, each rounded to bf16 on the way in, accumulated from zero: at the ideal values
    the rounding is the identity and entry (p, q) is the sum over k of x(p, k) · w(k, q). -/
theorem matmulBlock_apply {M K N : ℕ} (d : DotDims ⟨2, ![M, K]⟩ ⟨2, ![K, N]⟩ ⟨2, ![M, N]⟩) (hd : d = DotDims.plain M K N)
    (x : FVec Ideal ⟨2, ![M, K]⟩ .f32) (w : FVec Ideal ⟨2, ![K, N]⟩ .f32)
    (h1 : FTy.bf16.bits < FTy.f32.bits) (h2 : FTy.bf16.bits < FTy.f32.bits) (p : Fin M) (q : Fin N) :
    matmul d none (truncf .bf16 x h1) (truncf .bf16 w h2) (constant ⟨2, ![M, N]⟩ .f32 0x00000000#32) (ix2 p q)
      = ∑ k : Fin K, x (ix2 p k) * w (ix2 k q) :=
  matmul_plain_zero_apply d hd none (truncf .bf16 x h1) (truncf .bf16 w h2) p q

/-- A block of rows plus the bias row laid along them, entry (p, q): x(p, q) + b(0, q). -/
theorem addRowBlock_apply {M N : ℕ} (x : FVec Ideal ⟨2, ![M, N]⟩ .f32) (b : FVec Ideal ⟨2, ![1, N]⟩ .f32)
    (h : (⟨2, ![M, N]⟩ : Shape).ShapeCasts ⟨2, ![M, N]⟩) (h' : (⟨2, ![1, N]⟩ : Shape).ShapeCasts ⟨2, ![1, N]⟩)
    (hb : (⟨2, ![1, N]⟩ : Shape).Broadcasts ⟨2, ![M, N]⟩) (p : Fin M) (q : Fin N) :
    addf (shapeCast ⟨2, ![M, N]⟩ x h) (broadcastTo ⟨2, ![M, N]⟩ (shapeCast ⟨2, ![1, N]⟩ b h') hb) (ix2 p q)
      = FloatOps.addf (x (ix2 p q)) (b (ix2 (0 : Fin 1) q)) := by
  show FloatOps.addf (shapeCast ⟨2, ![M, N]⟩ x h (ix2 p q)) (broadcastTo ⟨2, ![M, N]⟩ (shapeCast ⟨2, ![1, N]⟩ b h') hb (ix2 p q)) = _
  rw [shapeCast_self, broadcastTo_1b_ab_apply, shapeCast_self]

end Cert.Gcn

end
-- ==== Proof.Region0.lean ====
/-
  The first launch: the node features [100000, 1] times the first weight matrix [1, 128], twenty blocks of 5000 rows.
  Grid point t multiplies rows 5000·t … 5000·t + 4999 by the whole weight matrix and writes that block of the product
  back; the twenty blocks tile the rows, so the array the launch leaves is the whole product, entry by entry.
-/
import proofs.«141334_j10161892622615_1_alg».proof.Proof.Gen.KernelIdeal.Frame
import proofs.«141334_j10161892622615_1_alg».proof.Proof.Spec

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx Cert.Gcn
open Idealize.ShloMosaic.Pipeline (Dat)

variable (V : (c : Dev nD) → (b : Ref sig .tc) → Buf (Elt Ideal) ((c : Thread nD τ).loc b))

/-- Input array 0 as the launch finds it, at its literal shape. -/
abbrev A0 (c : Dev nD) : FVec Ideal S100000x1 .f32 := V c main_arg0
/-- Input array 1 as the launch finds it, at its literal shape. -/
abbrev A1 (c : Dev nD) : FVec Ideal S1x128 .f32 := V c main_arg2

theorem hz : (![0, 0] : Fin 2 → Nat) = fun _ => 0 := funext fun a => by fin_cases a <;> rfl

/-- What the body stores for one block of rows, at an entry of the block. -/
theorem pay_apply (x0 : Vec Ideal S5000x1 .f32) (x1 : Vec Ideal S1x128 .f32) (p : Fin 5000) (q : Fin 128) :
    k0_pay1 x0 x1 (ix2 p q) = ∑ j : Fin 1, x0 (ix2 p j) * x1 (ix2 j q) := by
  unfold k0_pay1
  exact matmulBlock_apply dot_S5000x1_S1x128_S5000x128_1_0_0_1_n_n rfl x0 x1 _ _ p q

/-- The index maps over the grid: the row-block windows sit at block row t, every other window at its one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the layer's function of the arrays the launch finds. -/
theorem flushed_eq (c : Dev nD) (t : Fin cfg0.N) :
    (dat0 V c).flushed 2 t = ((cfg0.win 2).blk t).view.read (Elt Ideal) (mm (A0 V c) (A1 V c)) := by
  show (cfg0.win 2).cut (grid0.coords t) ((dat0 V c).after 2 t) = _
  rw [after0_2]
  unfold out0_2
  rw [View.canon_unit_zero hz]
  simp only [View.ld_unit_zero (S := S5000x1) hz, View.ld_unit_zero (S := S1x128) hz]
  obtain ⟨e0, e1, e2, e3, e4, e5⟩ := idx_facts t
  funext y
  obtain ⟨p, q, rfl⟩ : ∃ (p : Fin 5000) (q : Fin 128), y = ix2 p q := ⟨y 0, y 1, eq_ix2 y⟩
  show k0_pay1 (iblk0 V c 0 t) (iblk0 V c 1 t) (ix2 p q) = mm (A0 V c) (A1 V c) (((cfg0.win 2).blk t).view.emb (ix2 p q))
  refine (pay_apply (iblk0 V c 0 t) (iblk0 V c 1 t) p q).trans ?_
  refine Finset.sum_congr rfl fun j _ => ?_
  show A0 V c (((cfg0.win 0).blk t).view.emb (ix2 p j)) * A1 V c (((cfg0.win 1).blk t).view.emb (ix2 j q))
    = A0 V c (ix2 ((((cfg0.win 2).blk t).view.emb (ix2 p q)) 0) j) * A1 V c (ix2 j ((((cfg0.win 2).blk t).view.emb (ix2 p q)) 1))
  have h0 : ((cfg0.win 0).blk t).view.emb (ix2 p j) = ix2 ((((cfg0.win 2).blk t).view.emb (ix2 p q)) 0) j := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 1 + 1 * j.val = j.val; omega
  have h1 : ((cfg0.win 1).blk t).view.emb (ix2 j q) = ix2 j ((((cfg0.win 2).blk t).view.emb (ix2 p q)) 1) := by
    funext a; apply Fin.ext
    match a with
    | ⟨0, _⟩ => show win0_1.index t (0 : Fin 2) * 1 + 1 * j.val = j.val; omega
    | ⟨1, _⟩ => show win0_1.index t (1 : Fin 2) * 128 + 1 * q.val = win0_2.index t (1 : Fin 2) * 128 + 1 * q.val; omega
  rw [h0, h1] <;> rfl

/-- An index of the array is in point t's block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v32).slice (win0_2.rect t)).set ↔ _
  rw [View.set_slice_whole, Rect.mem_set_unit]
  exact Iff.rfl

/-- Every entry of the array is in the block of the point its row falls in: the twenty blocks tile the rows. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  let t : Fin cfg0.N := ⟨(i 0).val / 5000, by show (i 0).val / 5000 < 20; omega⟩
  obtain ⟨e0, e1, e2, e3, e4, e5⟩ := idx_facts t
  have e' : win0_2.index t (0 : Fin 2) = (i 0).val / 5000 := e4
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The array the launch leaves is the layer's function of the arrays it found. -/
theorem final (c : Dev nD) : (dat0 V c).arrAt 2 cfg0.N = mm (A0 V c) (A1 V c) :=
  (dat0 V c).arrAt_eq_of_cover 2 (mm (A0 V c) (A1 V c)) (fun t _ => flushed_eq V c t) cover

end Cert.KernelIdeal.Region0

end
-- ==== Proof.Region1.lean ====
/-
  The second launch: the first layer's epilogue. Grid point t takes rows 5000·t … 5000·t + 4999 of the aggregated array,
  adds the bias row to each and takes the positive part; the twenty blocks tile the rows, so the array the launch
  leaves is max(s + b, 0) entry by entry.
-/
import proofs.«141334_j10161892622615_1_alg».proof.Proof.Gen.KernelIdeal.Frame
import proofs.«141334_j10161892622615_1_alg».proof.Proof.Spec

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx Cert.Gcn
open Idealize.ShloMosaic.Pipeline (Dat)

variable (V : (c : Dev nD) → (b : Ref sig .tc) → Buf (Elt Ideal) ((c : Thread nD τ).loc b))

/-- Input array 0 as the launch finds it, at its literal shape. -/
abbrev A0 (c : Dev nD) : FVec Ideal S100000x128 .f32 := V c main_v45
/-- Input array 1 as the launch finds it, at its literal shape. -/
abbrev A1 (c : Dev nD) : FVec Ideal S1x128 .f32 := V c main_v46

theorem hz : (![0, 0] : Fin 2 → Nat) = fun _ => 0 := funext fun a => by fin_cases a <;> rfl

/-- What the body stores for one block of rows, at an entry of the block. -/
theorem pay_apply (x0 : Vec Ideal S5000x128 .f32) (x1 : Vec Ideal S1x128 .f32) (p : Fin 5000) (q : Fin 128) :
    k1_pay1 x0 x1 (ix2 p q) = FloatOps.maximumf (FloatOps.addf (x0 (ix2 p q)) (x1 (ix2 (0 : Fin 1) q))) (FloatOps.ofBits .f32 0x00000000#32) := by
  unfold k1_pay1
  exact congrArg (fun z => FloatOps.maximumf z (FloatOps.ofBits (F := Ideal) .f32 0x00000000#32)) (addRowBlock_apply x0 x1 _ _ _ p q)

/-- The index maps over the grid: the row-block windows sit at block row t, every other window at its one block. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the layer's function of the arrays the launch finds. -/
theorem flushed_eq (c : Dev nD) (t : Fin cfg1.N) :
    (dat1 V c).flushed 2 t = ((cfg1.win 2).blk t).view.read (Elt Ideal) (relu (addRow (A0 V c) (A1 V c))) := by
  show (cfg1.win 2).cut (grid1.coords t) ((dat1 V c).after 2 t) = _
  rw [after1_2]
  unfold out1_2
  rw [View.canon_unit_zero hz]
  simp only [View.ld_unit_zero (S := S5000x128) hz, View.ld_unit_zero (S := S1x128) hz]
  obtain ⟨e0, e1, e2, e3, e4, e5⟩ := idx_facts t
  funext y
  obtain ⟨p, q, rfl⟩ : ∃ (p : Fin 5000) (q : Fin 128), y = ix2 p q := ⟨y 0, y 1, eq_ix2 y⟩
  show k1_pay1 (iblk1 V c 0 t) (iblk1 V c 1 t) (ix2 p q) = relu (addRow (A0 V c) (A1 V c)) (((cfg1.win 2).blk t).view.emb (ix2 p q))
  refine (pay_apply (iblk1 V c 0 t) (iblk1 V c 1 t) p q).trans ?_
  show FloatOps.maximumf (FloatOps.addf (A0 V c (((cfg1.win 0).blk t).view.emb (ix2 p q))) (A1 V c (((cfg1.win 1).blk t).view.emb (ix2 (0 : Fin 1) q)))) (FloatOps.ofBits .f32 0x00000000#32)
    = FloatOps.maximumf (FloatOps.addf (A0 V c (((cfg1.win 2).blk t).view.emb (ix2 p q))) (A1 V c (ix2 (0 : Fin 1) ((((cfg1.win 2).blk t).view.emb (ix2 p q)) 1)))) (FloatOps.ofBits .f32 0x00000000#32)
  have h0 : ((cfg1.win 0).blk t).view.emb (ix2 p q) = ((cfg1.win 2).blk t).view.emb (ix2 p q) := by
    funext a; apply Fin.ext
    match a with
    | ⟨0, _⟩ => show win1_0.index t (0 : Fin 2) * 5000 + 1 * p.val = win1_2.index t (0 : Fin 2) * 5000 + 1 * p.val; omega
    | ⟨1, _⟩ => show win1_0.index t (1 : Fin 2) * 128 + 1 * q.val = win1_2.index t (1 : Fin 2) * 128 + 1 * q.val; omega
  have h1 : ((cfg1.win 1).blk t).view.emb (ix2 (0 : Fin 1) q) = ix2 (0 : Fin 1) ((((cfg1.win 2).blk t).view.emb (ix2 p q)) 1) := by
    funext a; apply Fin.ext
    match a with
    | ⟨0, _⟩ => show win1_1.index t (0 : Fin 2) * 1 + 1 * 0 = 0; omega
    | ⟨1, _⟩ => show win1_1.index t (1 : Fin 2) * 128 + 1 * q.val = win1_2.index t (1 : Fin 2) * 128 + 1 * q.val; omega
  rw [h0, h1] <;> rfl

/-- An index of the array is in point t's block iff each coordinate is in the block's range on its axis. -/
theorem mem_blk (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v47).slice (win1_2.rect t)).set ↔ _
  rw [View.set_slice_whole, Rect.mem_set_unit]
  exact Iff.rfl

/-- Every entry of the array is in the block of the point its row falls in: the twenty blocks tile the rows. -/
theorem cover (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  let t : Fin cfg1.N := ⟨(i 0).val / 5000, by show (i 0).val / 5000 < 20; omega⟩
  obtain ⟨e0, e1, e2, e3, e4, e5⟩ := idx_facts t
  have e' : win1_2.index t (0 : Fin 2) = (i 0).val / 5000 := e4
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The array the launch leaves is the layer's function of the arrays it found. -/
theorem final (c : Dev nD) : (dat1 V c).arrAt 2 cfg1.N = relu (addRow (A0 V c) (A1 V c)) :=
  (dat1 V c).arrAt_eq_of_cover 2 (relu (addRow (A0 V c) (A1 V c))) (fun t _ => flushed_eq V c t) cover

end Cert.KernelIdeal.Region1

end
-- ==== Proof.Region2.lean ====
/-
  The third launch: the second layer's product, [100000, 128] times [128, 128] in twenty blocks of 5000 rows; the
  blocks tile the rows, so the array the launch leaves is the whole product, entry by entry.
-/
import proofs.«141334_j10161892622615_1_alg».proof.Proof.Gen.KernelIdeal.Frame
import proofs.«141334_j10161892622615_1_alg».proof.Proof.Spec

set_option maxRecDepth 16384

noncomputable section

namespace Cert.KernelIdeal.Region2

open Cert.KernelIdeal Cert.KernelIdeal.Gen Idealize.ShloMosaic Idealize.ShloMosaic.TcCoe Idealize.SL.Sem
open Idealize.ShloMosaic.ValueIdx Cert.Gcn
open Idealize.ShloMosaic.Pipeline (Dat)

variable (V : (c : Dev nD) → (b : Ref sig .tc) → Buf (Elt Ideal) ((c : Thread nD τ).loc b))

/-- Input array 0 as the launch finds it, at its literal shape. -/
abbrev A0 (c : Dev nD) : FVec Ideal S100000x128 .f32 := V c main_v47
/-- Input array 1 as the launch finds it, at its literal shape. -/
abbrev A1 (c : Dev nD) : FVec Ideal S128x128 .f32 := V c main_arg4

theorem hz : (![0, 0] : Fin 2 → Nat) = fun _ => 0 := funext fun a => by fin_cases a <;> rfl

/-- What the body stores for one block of rows, at an entry of the block. -/
theorem pay_apply (x0 : Vec Ideal S5000x128 .f32) (x1 : Vec Ideal S128x128 .f32) (p : Fin 5000) (q : Fin 128) :
    k2_pay1 x0 x1 (ix2 p q) = ∑ j : Fin 128, x0 (ix2 p j) * x1 (ix2 j q) := by
  unfold k2_pay1
  simp only [shapeCast_self]
  exact matmulBlock_apply dot_S5000x128_S128x128_S5000x128_1_0_0_1_n_n rfl x0 x1 _ _ p q

/-- The index maps over the grid: the row-block windows sit at block row t, every other window at its one block. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the layer's function of the arrays the launch finds. -/
theorem flushed_eq (c : Dev nD) (t : Fin cfg2.N) :
    (dat2 V c).flushed 2 t = ((cfg2.win 2).blk t).view.read (Elt Ideal) (mm (A0 V c) (A1 V c)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  obtain ⟨e0, e1, e2, e3, e4, e5⟩ := idx_facts t
  funext y
  obtain ⟨p, q, rfl⟩ : ∃ (p : Fin 5000) (q : Fin 128), y = ix2 p q := ⟨y 0, y 1, eq_ix2 y⟩
  show k2_pay1 (iblk2 V c 0 t) (iblk2 V c 1 t) (ix2 p q) = mm (A0 V c) (A1 V c) (((cfg2.win 2).blk t).view.emb (ix2 p q))
  refine (pay_apply (iblk2 V c 0 t) (iblk2 V c 1 t) p q).trans ?_
  refine Finset.sum_congr rfl fun j _ => ?_
  show A0 V c (((cfg2.win 0).blk t).view.emb (ix2 p j)) * A1 V c (((cfg2.win 1).blk t).view.emb (ix2 j q))
    = A0 V c (ix2 ((((cfg2.win 2).blk t).view.emb (ix2 p q)) 0) j) * A1 V c (ix2 j ((((cfg2.win 2).blk t).view.emb (ix2 p q)) 1))
  have h0 : ((cfg2.win 0).blk t).view.emb (ix2 p j) = ix2 ((((cfg2.win 2).blk t).view.emb (ix2 p q)) 0) j := by
    funext a; apply Fin.ext
    match a with
    | ⟨0, _⟩ => show win2_0.index t (0 : Fin 2) * 5000 + 1 * p.val = win2_2.index t (0 : Fin 2) * 5000 + 1 * p.val; omega
    | ⟨1, _⟩ => show win2_0.index t (1 : Fin 2) * 128 + 1 * j.val = j.val; omega
  have h1 : ((cfg2.win 1).blk t).view.emb (ix2 j q) = ix2 j ((((cfg2.win 2).blk t).view.emb (ix2 p q)) 1) := by
    funext a; apply Fin.ext
    match a with
    | ⟨0, _⟩ => show win2_1.index t (0 : Fin 2) * 128 + 1 * j.val = j.val; omega
    | ⟨1, _⟩ => show win2_1.index t (1 : Fin 2) * 128 + 1 * q.val = win2_2.index t (1 : Fin 2) * 128 + 1 * q.val; omega
  rw [h0, h1] <;> rfl

/-- An index of the array is in point t's block iff each coordinate is in the block's range on its axis. -/
theorem mem_blk (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v48).slice (win2_2.rect t)).set ↔ _
  rw [View.set_slice_whole, Rect.mem_set_unit]
  exact Iff.rfl

/-- Every entry of the array is in the block of the point its row falls in: the twenty blocks tile the rows. -/
theorem cover (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  let t : Fin cfg2.N := ⟨(i 0).val / 5000, by show (i 0).val / 5000 < 20; omega⟩
  obtain ⟨e0, e1, e2, e3, e4, e5⟩ := idx_facts t
  have e' : win2_2.index t (0 : Fin 2) = (i 0).val / 5000 := e4
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- The array the launch leaves is the layer's function of the arrays it found. -/
theorem final (c : Dev nD) : (dat2 V c).arrAt 2 cfg2.N = mm (A0 V c) (A1 V c) :=
  (dat2 V c).arrAt_eq_of_cover 2 (mm (A0 V c) (A1 V c)) (fun t _ => flushed_eq V c t) cover

end Cert.KernelIdeal.Region2

end
-- ==== Proof.Region3.lean ====
/-
  The fourth launch: the second layer's epilogue, the bias row added to every row and the positive part taken, in
  twenty blocks of 5000 rows that tile the array.
-/
import proofs.«141334_j10161892622615_1_alg».proof.Proof.Gen.KernelIdeal.Frame
import proofs.«141334_j10161892622615_1_alg».proof.Proof.Spec

set_option maxRecDepth 16384

noncomputable section

namespace Cert.KernelIdeal.Region3

open Cert.KernelIdeal Cert.KernelIdeal.Gen Idealize.ShloMosaic Idealize.ShloMosaic.TcCoe Idealize.SL.Sem
open Idealize.ShloMosaic.ValueIdx Cert.Gcn
open Idealize.ShloMosaic.Pipeline (Dat)

variable (V : (c : Dev nD) → (b : Ref sig .tc) → Buf (Elt Ideal) ((c : Thread nD τ).loc b))

/-- Input array 0 as the launch finds it, at its literal shape. -/
abbrev A0 (c : Dev nD) : FVec Ideal S100000x128 .f32 := V c main_v61
/-- Input array 1 as the launch finds it, at its literal shape. -/
abbrev A1 (c : Dev nD) : FVec Ideal S1x128 .f32 := V c main_v62

theorem hz : (![0, 0] : Fin 2 → Nat) = fun _ => 0 := funext fun a => by fin_cases a <;> rfl

/-- What the body stores for one block of rows, at an entry of the block. -/
theorem pay_apply (x0 : Vec Ideal S5000x128 .f32) (x1 : Vec Ideal S1x128 .f32) (p : Fin 5000) (q : Fin 128) :
    k3_pay1 x0 x1 (ix2 p q) = FloatOps.maximumf (FloatOps.addf (x0 (ix2 p q)) (x1 (ix2 (0 : Fin 1) q))) (FloatOps.ofBits .f32 0x00000000#32) := by
  unfold k3_pay1
  exact congrArg (fun z => FloatOps.maximumf z (FloatOps.ofBits (F := Ideal) .f32 0x00000000#32)) (addRowBlock_apply x0 x1 _ _ _ p q)

/-- The index maps over the grid: the row-block windows sit at block row t, every other window at its one block. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of the layer's function of the arrays the launch finds. -/
theorem flushed_eq (c : Dev nD) (t : Fin cfg3.N) :
    (dat3 V c).flushed 2 t = ((cfg3.win 2).blk t).view.read (Elt Ideal) (relu (addRow (A0 V c) (A1 V c))) := by
  show (cfg3.win 2).cut (grid3.coords t) ((dat3 V c).after 2 t) = _
  rw [after3_2]
  unfold out3_2
  rw [View.canon_unit_zero hz]
  simp only [View.ld_unit_zero (S := S5000x128) hz, View.ld_unit_zero (S := S1x128) hz]
  obtain ⟨e0, e1, e2, e3, e4, e5⟩ := idx_facts t
  funext y
  obtain ⟨p, q, rfl⟩ : ∃ (p : Fin 5000) (q : Fin 128), y = ix2 p q := ⟨y 0, y 1, eq_ix2 y⟩
  show k3_pay1 (iblk3 V c 0 t) (iblk3 V c 1 t) (ix2 p q) = relu (addRow (A0 V c) (A1 V c)) (((cfg3.win 2).blk t).view.emb (ix2 p q))
  refine (pay_apply (iblk3 V c 0 t) (iblk3 V c 1 t) p q).trans ?_
  show FloatOps.maximumf (FloatOps.addf (A0 V c (((cfg3.win 0).blk t).view.emb (ix2 p q))) (A1 V c (((cfg3.win 1).blk t).view.emb (ix2 (0 : Fin 1) q)))) (FloatOps.ofBits .f32 0x00000000#32)
    = FloatOps.maximumf (FloatOps.addf (A0 V c (((cfg3.win 2).blk t).view.emb (ix2 p q))) (A1 V c (ix2 (0 : Fin 1) ((((cfg3.win 2).blk t).view.emb (ix2 p q)) 1)))) (FloatOps.ofBits .f32 0x00000000#32)
  have h0 : ((cfg3.win 0).blk t).view.emb (ix2 p q) = ((cfg3.win 2).blk t).view.emb (ix2 p q) := by
    funext a; apply Fin.ext
    match a with
    | ⟨0, _⟩ => show win3_0.index t (0 : Fin 2) * 5000 + 1 * p.val = win3_2.index t (0 : Fin 2) * 5000 + 1 * p.val; omega
    | ⟨1, _⟩ => show win3_0.index t (1 : Fin 2) * 128 + 1 * q.val = win3_2.index t (1 : Fin 2) * 128 + 1 * q.val; omega
  have h1 : ((cfg3.win 1).blk t).view.emb (ix2 (0 : Fin 1) q) = ix2 (0 : Fin 1) ((((cfg3.win 2).blk t).view.emb (ix2 p q)) 1) := by
    funext a; apply Fin.ext
    match a with
    | ⟨0, _⟩ => show win3_1.index t (0 : Fin 2) * 1 + 1 * 0 = 0; omega
    | ⟨1, _⟩ => show win3_1.index t (1 : Fin 2) * 128 + 1 * q.val = win3_2.index t (1 : Fin 2) * 128 + 1 * q.val; omega
  rw [h0, h1] <;> rfl

/-- An index of the array is in point t's block iff each coordinate is in the block's range on its axis. -/
theorem mem_blk (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v63).slice (win3_2.rect t)).set ↔ _
  rw [View.set_slice_whole, Rect.mem_set_unit]
  exact Iff.rfl

/-- Every entry of the array is in the block of the point its row falls in: the twenty blocks tile the rows. -/
theorem cover (i : S100000x128.Idx) : ∃ t : Fin cfg3.N, (cfg3.win 2).flush t = true ∧ i ∈ ((cfg3.win 2).blk t).view.set := by
  have hi0 : (i 0).val < 100000 := (i 0).isLt
  have hi1 : (i 1).val < 128 := (i 1).isLt
  let t : Fin cfg3.N := ⟨(i 0).val / 5000, by show (i 0).val / 5000 < 20; omega⟩
  obtain ⟨e0, e1, e2, e3, e4, e5⟩ := idx_facts t
  have e' : win3_2.index t (0 : Fin 2) = (i 0).val / 5000 := e4
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- The array the launch leaves is the layer's function of the arrays it found. -/
theorem final (c : Dev nD) : (dat3 V c).arrAt 2 cfg3.N = relu (addRow (A0 V c) (A1 V c)) :=
  (dat3 V c).arrAt_eq_of_cover 2 (relu (addRow (A0 V c) (A1 V c))) (fun t _ => flushed_eq V c t) cover

end Cert.KernelIdeal.Region3

end
-- ==== Proof.Region4.lean ====
/-
  The fifth launch: the third layer's product, [100000, 128] times [128, 128] in twenty blocks of 5000 rows that tile
  the rows of the product.
-/
import proofs.«141334_j10161892622615_1_alg».proof.Proof.Gen.KernelIdeal.Frame
import proofs.«141334_j10161892622615_1_alg».proof.Proof.Spec

set_option maxRecDepth 16384

noncomputable section

namespace Cert.KernelIdeal.Region4

open Cert.KernelIdeal Cert.KernelIdeal.Gen Idealize.ShloMosaic Idealize.ShloMosaic.TcCoe Idealize.SL.Sem
open Idealize.ShloMosaic.ValueIdx Cert.Gcn
open Idealize.ShloMosaic.Pipeline (Dat)

variable (V : (c : Dev nD) → (b : Ref sig .tc) → Buf (Elt Ideal) ((c : Thread nD τ).loc b))

/-- Input array 0 as the launch finds it, at its literal shape. -/
abbrev A0 (c : Dev nD) : FVec Ideal S100000x128 .f32 := V c main_v63
/-- Input array 1 as the launch finds it, at its literal shape. -/
abbrev A1 (c : Dev nD) : FVec Ideal S128x128 .f32 := V c main_arg6

theorem hz : (![0, 0] : Fin 2 → Nat) = fun _ => 0 := funext fun a => by fin_cases a <;> rfl

/-- What the body stores for one block of rows, at an entry of the block. -/
theorem pay_apply (x0 : Vec Ideal S5000x128 .f32) (x1 : Vec Ideal S128x128 .f32) (p : Fin 5000) (q : Fin 128) :
    k4_pay1 x0 x1 (ix2 p q) = ∑ j : Fin 128, x0 (ix2 p j) * x1 (ix2 j q) := by
  unfold k4_pay1
  simp only [shapeCast_self]
  exact matmulBlock_apply dot_S5000x128_S128x128_S5000x128_1_0_0_1_n_n rfl x0 x1 _ _ p q

/-- The index maps over the grid: the row-block windows sit at block row t, every other window at its one block. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point t writes back is block t of the layer's function of the arrays the launch finds. -/
theorem flushed_eq (c : Dev nD) (t : Fin cfg4.N) :
    (dat4 V c).flushed 2 t = ((cfg4.win 2).blk t).view.read (Elt Ideal) (mm (A0 V c) (A1 V c)) := by
  show (cfg4.win 2).cut (grid4.coords t) ((dat4 V c).after 2 t) = _
  rw [after4_2]
  unfold out4_2
  rw [View.canon_unit_zero hz]
  simp only [View.ld_unit_zero (S := S5000x128) hz, View.ld_unit_zero (S := S128x128) hz]
  obtain ⟨e0, e1, e2, e3, e4, e5⟩ := idx_facts t
  funext y
  obtain ⟨p, q, rfl⟩ : ∃ (p : Fin 5000) (q : Fin 128), y = ix2 p q := ⟨y 0, y 1, eq_ix2 y⟩
  show k4_pay1 (iblk4 V c 0 t) (iblk4 V c 1 t) (ix2 p q) = mm (A0 V c) (A1 V c) (((cfg4.win 2).blk t).view.emb (ix2 p q))
  refine (pay_apply (iblk4 V c 0 t) (iblk4 V c 1 t) p q).trans ?_
  refine Finset.sum_congr rfl fun j _ => ?_
  show A0 V c (((cfg4.win 0).blk t).view.emb (ix2 p j)) * A1 V c (((cfg4.win 1).blk t).view.emb (ix2 j q))
    = A0 V c (ix2 ((((cfg4.win 2).blk t).view.emb (ix2 p q)) 0) j) * A1 V c (ix2 j ((((cfg4.win 2).blk t).view.emb (ix2 p q)) 1))
  have h0 : ((cfg4.win 0).blk t).view.emb (ix2 p j) = ix2 ((((cfg4.win 2).blk t).view.emb (ix2 p q)) 0) j := by
    funext a; apply Fin.ext
    match a with
    | ⟨0, _⟩ => show win4_0.index t (0 : Fin 2) * 5000 + 1 * p.val = win4_2.index t (0 : Fin 2) * 5000 + 1 * p.val; omega
    | ⟨1, _⟩ => show win4_0.index t (1 : Fin 2) * 128 + 1 * j.val = j.val; omega
  have h1 : ((cfg4.win 1).blk t).view.emb (ix2 j q) = ix2 j ((((cfg4.win 2).blk t).view.emb (ix2 p q)) 1) := by
    funext a; apply Fin.ext
    match a with
    | ⟨0, _⟩ => show win4_1.index t (0 : Fin 2) * 128 + 1 * j.val = j.val; omega
    | ⟨1, _⟩ => show win4_1.index t (1 : Fin 2) * 128 + 1 * q.val = win4_2.index t (1 : Fin 2) * 128 + 1 * q.val; omega
  rw [h0, h1] <;> rfl

/-- An index of the array is in point t's block iff each coordinate is in the block's range on its axis. -/
theorem mem_blk (t : Fin cfg4.N) (i : S100000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v64).slice (win4_2.rect t)).set ↔ _
  rw [View.set_slice_whole, Rect.mem_set_unit]
  exact Iff.rfl

/-- Every entry of the array is in the block of the point its row falls in: the twenty blocks tile the rows. -/
theorem cover (i : S100000x128.Idx) : ∃ t : Fin cfg4.N, (cfg4.win 2).flush t = true ∧ i ∈ ((cfg4.win 2).blk t).view.set := by
  have hi0 : (i 0).val < 100000 := (i 0).isLt
  have hi1 : (i 1).val < 128 := (i 1).isLt
  let t : Fin cfg4.N := ⟨(i 0).val / 5000, by show (i 0).val / 5000 < 20; omega⟩
  obtain ⟨e0, e1, e2, e3, e4, e5⟩ := idx_facts t
  have e' : win4_2.index t (0 : Fin 2) = (i 0).val / 5000 := e4
  refine ⟨t, flush4_2 t, ?_⟩
  rw [mem_blk]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 128 ≤ (i 1).val ∧ (i 1).val < win4_2.index t (1 : Fin 2) * 128 + 128; omega

/-- The array the launch leaves is the layer's function of the arrays it found. -/
theorem final (c : Dev nD) : (dat4 V c).arrAt 2 cfg4.N = mm (A0 V c) (A1 V c) :=
  (dat4 V c).arrAt_eq_of_cover 2 (mm (A0 V c) (A1 V c)) (fun t _ => flushed_eq V c t) cover

end Cert.KernelIdeal.Region4

end
-- ==== Proof.Region5.lean ====
/-
  The sixth launch: the third layer's epilogue, the bias row added to every row (no positive part here), in twenty
  blocks of 5000 rows that tile the array.
-/
import proofs.«141334_j10161892622615_1_alg».proof.Proof.Gen.KernelIdeal.Frame
import proofs.«141334_j10161892622615_1_alg».proof.Proof.Spec

set_option maxRecDepth 16384

noncomputable section

namespace Cert.KernelIdeal.Region5

open Cert.KernelIdeal Cert.KernelIdeal.Gen Idealize.ShloMosaic Idealize.ShloMosaic.TcCoe Idealize.SL.Sem
open Idealize.ShloMosaic.ValueIdx Cert.Gcn
open Idealize.ShloMosaic.Pipeline (Dat)

variable (V : (c : Dev nD) → (b : Ref sig .tc) → Buf (Elt Ideal) ((c : Thread nD τ).loc b))

/-- Input array 0 as the launch finds it, at its literal shape. -/
abbrev A0 (c : Dev nD) : FVec Ideal S100000x128 .f32 := V c main_v77
/-- Input array 1 as the launch finds it, at its literal shape. -/
abbrev A1 (c : Dev nD) : FVec Ideal S1x128 .f32 := V c main_v78

theorem hz : (![0, 0] : Fin 2 → Nat) = fun _ => 0 := funext fun a => by fin_cases a <;> rfl

/-- What the body stores for one block of rows, at an entry of the block. -/
theorem pay_apply (x0 : Vec Ideal S5000x128 .f32) (x1 : Vec Ideal S1x128 .f32) (p : Fin 5000) (q : Fin 128) :
    k5_pay1 x0 x1 (ix2 p q) = FloatOps.addf (x0 (ix2 p q)) (x1 (ix2 (0 : Fin 1) q)) := by
  unfold k5_pay1
  exact addRowBlock_apply x0 x1 _ _ _ p q

/-- The index maps over the grid: the row-block windows sit at block row t, every other window at its one block. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point t writes back is block t of the layer's function of the arrays the launch finds. -/
theorem flushed_eq (c : Dev nD) (t : Fin cfg5.N) :
    (dat5 V c).flushed 2 t = ((cfg5.win 2).blk t).view.read (Elt Ideal) (addRow (A0 V c) (A1 V c)) := by
  show (cfg5.win 2).cut (grid5.coords t) ((dat5 V c).after 2 t) = _
  rw [after5_2]
  unfold out5_2
  rw [View.canon_unit_zero hz]
  simp only [View.ld_unit_zero (S := S5000x128) hz, View.ld_unit_zero (S := S1x128) hz]
  obtain ⟨e0, e1, e2, e3, e4, e5⟩ := idx_facts t
  funext y
  obtain ⟨p, q, rfl⟩ : ∃ (p : Fin 5000) (q : Fin 128), y = ix2 p q := ⟨y 0, y 1, eq_ix2 y⟩
  show k5_pay1 (iblk5 V c 0 t) (iblk5 V c 1 t) (ix2 p q) = addRow (A0 V c) (A1 V c) (((cfg5.win 2).blk t).view.emb (ix2 p q))
  refine (pay_apply (iblk5 V c 0 t) (iblk5 V c 1 t) p q).trans ?_
  show FloatOps.addf (A0 V c (((cfg5.win 0).blk t).view.emb (ix2 p q))) (A1 V c (((cfg5.win 1).blk t).view.emb (ix2 (0 : Fin 1) q)))
    = FloatOps.addf (A0 V c (((cfg5.win 2).blk t).view.emb (ix2 p q))) (A1 V c (ix2 (0 : Fin 1) ((((cfg5.win 2).blk t).view.emb (ix2 p q)) 1)))
  have h0 : ((cfg5.win 0).blk t).view.emb (ix2 p q) = ((cfg5.win 2).blk t).view.emb (ix2 p q) := by
    funext a; apply Fin.ext
    match a with
    | ⟨0, _⟩ => show win5_0.index t (0 : Fin 2) * 5000 + 1 * p.val = win5_2.index t (0 : Fin 2) * 5000 + 1 * p.val; omega
    | ⟨1, _⟩ => show win5_0.index t (1 : Fin 2) * 128 + 1 * q.val = win5_2.index t (1 : Fin 2) * 128 + 1 * q.val; omega
  have h1 : ((cfg5.win 1).blk t).view.emb (ix2 (0 : Fin 1) q) = ix2 (0 : Fin 1) ((((cfg5.win 2).blk t).view.emb (ix2 p q)) 1) := by
    funext a; apply Fin.ext
    match a with
    | ⟨0, _⟩ => show win5_1.index t (0 : Fin 2) * 1 + 1 * 0 = 0; omega
    | ⟨1, _⟩ => show win5_1.index t (1 : Fin 2) * 128 + 1 * q.val = win5_2.index t (1 : Fin 2) * 128 + 1 * q.val; omega
  rw [h0, h1] <;> rfl

/-- An index of the array is in point t's block iff each coordinate is in the block's range on its axis. -/
theorem mem_blk (t : Fin cfg5.N) (i : S100000x128.Idx) :
    i ∈ ((cfg5.win 2).blk t).view.set ↔ ∀ a : Fin 2, win5_2.index t a * S5000x128.size a ≤ (i a).val ∧ (i a).val < win5_2.index t a * S5000x128.size a + S5000x128.size a := by
  show i ∈ ((View.whole main_v79).slice (win5_2.rect t)).set ↔ _
  rw [View.set_slice_whole, Rect.mem_set_unit]
  exact Iff.rfl

/-- Every entry of the array is in the block of the point its row falls in: the twenty blocks tile the rows. -/
theorem cover (i : S100000x128.Idx) : ∃ t : Fin cfg5.N, (cfg5.win 2).flush t = true ∧ i ∈ ((cfg5.win 2).blk t).view.set := by
  have hi0 : (i 0).val < 100000 := (i 0).isLt
  have hi1 : (i 1).val < 128 := (i 1).isLt
  let t : Fin cfg5.N := ⟨(i 0).val / 5000, by show (i 0).val / 5000 < 20; omega⟩
  obtain ⟨e0, e1, e2, e3, e4, e5⟩ := idx_facts t
  have e' : win5_2.index t (0 : Fin 2) = (i 0).val / 5000 := e4
  refine ⟨t, flush5_2 t, ?_⟩
  rw [mem_blk]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 128 ≤ (i 1).val ∧ (i 1).val < win5_2.index t (1 : Fin 2) * 128 + 128; omega

/-- The array the launch leaves is the layer's function of the arrays it found. -/
theorem final (c : Dev nD) : (dat5 V c).arrAt 2 cfg5.N = addRow (A0 V c) (A1 V c) :=
  (dat5 V c).arrAt_eq_of_cover 2 (addRow (A0 V c) (A1 V c)) (fun t _ => flushed_eq V c t) cover

end Cert.KernelIdeal.Region5

end
-- ==== Proof.Region6.lean ====
/-
  The last launch: the linear head, [100000, 128] times [128, 64] plus the bias row, in twenty blocks of 5000 rows
  that tile the rows of the result.
-/
import proofs.«141334_j10161892622615_1_alg».proof.Proof.Gen.KernelIdeal.Frame
import proofs.«141334_j10161892622615_1_alg».proof.Proof.Spec

set_option maxRecDepth 16384

noncomputable section

namespace Cert.KernelIdeal.Region6

open Cert.KernelIdeal Cert.KernelIdeal.Gen Idealize.ShloMosaic Idealize.ShloMosaic.TcCoe Idealize.SL.Sem
open Idealize.ShloMosaic.ValueIdx Cert.Gcn
open Idealize.ShloMosaic.Pipeline (Dat)

variable (V : (c : Dev nD) → (b : Ref sig .tc) → Buf (Elt Ideal) ((c : Thread nD τ).loc b))

/-- Input array 0 as the launch finds it, at its literal shape. -/
abbrev A0 (c : Dev nD) : FVec Ideal S100000x128 .f32 := V c main_v79
/-- Input array 1 as the launch finds it, at its literal shape. -/
abbrev A1 (c : Dev nD) : FVec Ideal S128x64 .f32 := V c main_arg8
/-- Input array 2 as the launch finds it, at its literal shape. -/
abbrev A2 (c : Dev nD) : FVec Ideal S1x64 .f32 := V c main_v80

theorem hz : (![0, 0] : Fin 2 → Nat) = fun _ => 0 := funext fun a => by fin_cases a <;> rfl

/-- What the body stores for one block of rows, at an entry of the block. -/
theorem pay_apply (x0 : Vec Ideal S5000x128 .f32) (x1 : Vec Ideal S128x64 .f32) (x2 : Vec Ideal S1x64 .f32) (p : Fin 5000) (q : Fin 64) :
    k6_pay1 x0 x1 x2 (ix2 p q) = FloatOps.addf (∑ j : Fin 128, x0 (ix2 p j) * x1 (ix2 j q)) (x2 (ix2 (0 : Fin 1) q)) := by
  unfold k6_pay1
  simp only [shapeCast_self]
  exact congrArg₂ (FloatOps.addf (F := Ideal) (φ := .f32)) (matmulBlock_apply dot_S5000x128_S128x64_S5000x64_1_0_0_1_n_n rfl x0 x1 _ _ p q) (broadcastTo_1b_ab_apply x2 _ p q)

/-- The index maps over the grid: the row-block windows sit at block row t, every other window at its one block. -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- What point t writes back is block t of the layer's function of the arrays the launch finds. -/
theorem flushed_eq (c : Dev nD) (t : Fin cfg6.N) :
    (dat6 V c).flushed 3 t = ((cfg6.win 3).blk t).view.read (Elt Ideal) (addRow (mm (A0 V c) (A1 V c)) (A2 V c)) := by
  show (cfg6.win 3).cut (grid6.coords t) ((dat6 V c).after 3 t) = _
  rw [after6_3]
  unfold out6_3
  rw [View.canon_unit_zero hz]
  simp only [View.ld_unit_zero (S := S5000x128) hz, View.ld_unit_zero (S := S128x64) hz, View.ld_unit_zero (S := S1x64) hz]
  obtain ⟨e0, e1, e2, e3, e4, e5, e6, e7⟩ := idx_facts t
  funext y
  obtain ⟨p, q, rfl⟩ : ∃ (p : Fin 5000) (q : Fin 64), y = ix2 p q := ⟨y 0, y 1, eq_ix2 y⟩
  show k6_pay1 (iblk6 V c 0 t) (iblk6 V c 1 t) (iblk6 V c 2 t) (ix2 p q) = addRow (mm (A0 V c) (A1 V c)) (A2 V c) (((cfg6.win 3).blk t).view.emb (ix2 p q))
  refine (pay_apply (iblk6 V c 0 t) (iblk6 V c 1 t) (iblk6 V c 2 t) p q).trans ?_
  show FloatOps.addf (∑ j : Fin 128, A0 V c (((cfg6.win 0).blk t).view.emb (ix2 p j)) * A1 V c (((cfg6.win 1).blk t).view.emb (ix2 j q))) (A2 V c (((cfg6.win 2).blk t).view.emb (ix2 (0 : Fin 1) q)))
    = FloatOps.addf (∑ j : Fin 128, A0 V c (ix2 ((((cfg6.win 3).blk t).view.emb (ix2 p q)) 0) j) * A1 V c (ix2 j ((((cfg6.win 3).blk t).view.emb (ix2 p q)) 1))) (A2 V c (ix2 (0 : Fin 1) ((((cfg6.win 3).blk t).view.emb (ix2 p q)) 1)))
  have h0 : ∀ j : Fin 128, ((cfg6.win 0).blk t).view.emb (ix2 p j) = ix2 ((((cfg6.win 3).blk t).view.emb (ix2 p q)) 0) j := fun j => by
    funext a; apply Fin.ext
    match a with
    | ⟨0, _⟩ => show win6_0.index t (0 : Fin 2) * 5000 + 1 * p.val = win6_3.index t (0 : Fin 2) * 5000 + 1 * p.val; omega
    | ⟨1, _⟩ => show win6_0.index t (1 : Fin 2) * 128 + 1 * j.val = j.val; omega
  have h1 : ∀ j : Fin 128, ((cfg6.win 1).blk t).view.emb (ix2 j q) = ix2 j ((((cfg6.win 3).blk t).view.emb (ix2 p q)) 1) := fun j => by
    funext a; apply Fin.ext
    match a with
    | ⟨0, _⟩ => show win6_1.index t (0 : Fin 2) * 128 + 1 * j.val = j.val; omega
    | ⟨1, _⟩ => show win6_1.index t (1 : Fin 2) * 64 + 1 * q.val = win6_3.index t (1 : Fin 2) * 64 + 1 * q.val; omega
  have h2 : ((cfg6.win 2).blk t).view.emb (ix2 (0 : Fin 1) q) = ix2 (0 : Fin 1) ((((cfg6.win 3).blk t).view.emb (ix2 p q)) 1) := by
    funext a; apply Fin.ext
    match a with
    | ⟨0, _⟩ => show win6_2.index t (0 : Fin 2) * 1 + 1 * 0 = 0; omega
    | ⟨1, _⟩ => show win6_2.index t (1 : Fin 2) * 64 + 1 * q.val = win6_3.index t (1 : Fin 2) * 64 + 1 * q.val; omega
  rw [h2]
  refine congrArg (fun z => FloatOps.addf z _) (Finset.sum_congr rfl fun j _ => ?_)
  rw [h0 j, h1 j] <;> rfl

/-- An index of the array is in point t's block iff each coordinate is in the block's range on its axis. -/
theorem mem_blk (t : Fin cfg6.N) (i : S100000x64.Idx) :
    i ∈ ((cfg6.win 3).blk t).view.set ↔ ∀ a : Fin 2, win6_3.index t a * S5000x64.size a ≤ (i a).val ∧ (i a).val < win6_3.index t a * S5000x64.size a + S5000x64.size a := by
  show i ∈ ((View.whole main_v81).slice (win6_3.rect t)).set ↔ _
  rw [View.set_slice_whole, Rect.mem_set_unit]
  exact Iff.rfl

/-- Every entry of the array is in the block of the point its row falls in: the twenty blocks tile the rows. -/
theorem cover (i : S100000x64.Idx) : ∃ t : Fin cfg6.N, (cfg6.win 3).flush t = true ∧ i ∈ ((cfg6.win 3).blk t).view.set := by
  have hi0 : (i 0).val < 100000 := (i 0).isLt
  have hi1 : (i 1).val < 64 := (i 1).isLt
  let t : Fin cfg6.N := ⟨(i 0).val / 5000, by show (i 0).val / 5000 < 20; omega⟩
  obtain ⟨e0, e1, e2, e3, e4, e5, e6, e7⟩ := idx_facts t
  have e' : win6_3.index t (0 : Fin 2) = (i 0).val / 5000 := e6
  refine ⟨t, flush6_3 t, ?_⟩
  rw [mem_blk]
  intro a
  match a with
  | ⟨0, _⟩ => show win6_3.index t (0 : Fin 2) * 5000 ≤ (i 0).val ∧ (i 0).val < win6_3.index t (0 : Fin 2) * 5000 + 5000; omega
  | ⟨1, _⟩ => show win6_3.index t (1 : Fin 2) * 64 ≤ (i 1).val ∧ (i 1).val < win6_3.index t (1 : Fin 2) * 64 + 64; omega

/-- The array the launch leaves is the layer's function of the arrays it found. -/
theorem final (c : Dev nD) : (dat6 V c).arrAt 3 cfg6.N = addRow (mm (A0 V c) (A1 V c)) (A2 V c) :=
  (dat6 V c).arrAt_eq_of_cover 3 (addRow (mm (A0 V c) (A1 V c)) (A2 V c)) (fun t _ => flushed_eq V c t) cover

end Cert.KernelIdeal.Region6

end
-- ==== Proof.RefLayers.lean ====
/-
  The reference program's arithmetic in layers. From the edge list: the source and destination of every edge with one
  self loop per node appended; an index below zero wrapped once by the node count; the inverse square root of each node's
  in-degree (zero where the degree is zero); the weight of an edge, the product of that quantity at its two ends. One
  aggregation: rows of a node array gathered at the sources, scaled by the edge weights and summed into the destinations.
  The network: three rounds of "multiply by a weight matrix, aggregate, add a bias row" (the first two followed by the
  positive part) and a last product with its bias row. The reference's result term is this composition, read off its text.
-/
import proofs.«141334_j10161892622615_1_alg».proof.Proof.RefRun

set_option maxRecDepth 16384

noncomputable section

namespace Cert.ReferenceIdeal.Layers

open Cert.ReferenceIdeal Cert.ReferenceIdeal.Gen Idealize.ShloMosaic Idealize.ShloMosaic.TcCoe Idealize.SL.Sem Idealize.ShloMosaic.StableHlo

variable {F : FTy → Type} [FloatOps F]

/-- Edge sources: row 0 of the edge list, then every node once (its self loop). -/
def srcOf (a1 : (⟨S2x1600000, .i32⟩ : BufTy).Contents (Elt F)) : (⟨S1700000, .i32⟩ : BufTy).Contents (Elt F) :=
  (concatenate S1700000 0 [⟨S1600000, (shapeCast _ (extractStridedSlice S1x1600000 ![0, 0] a1 slices_S2x1600000_S1x1600000_0_0) shapeCasts_S1x1600000_S1600000) ⟩, ⟨S100000, (iotaInDim S100000 32 0) ⟩] concatenates_S1600000_S100000_S1700000_d0)

/-- Edge destinations: row 1 of the edge list, then every node once. -/
def dstOf (a1 : (⟨S2x1600000, .i32⟩ : BufTy).Contents (Elt F)) : (⟨S1700000, .i32⟩ : BufTy).Contents (Elt F) :=
  (concatenate S1700000 0 [⟨S1600000, (shapeCast _ (extractStridedSlice S1x1600000 ![1, 0] a1 slices_S2x1600000_S1x1600000_1_0) shapeCasts_S1x1600000_S1600000) ⟩, ⟨S100000, (iotaInDim S100000 32 0) ⟩] concatenates_S1600000_S100000_S1700000_d0)

/-- An index below zero is raised once by the node count; any other is kept. -/
def wrapIdx (v : (⟨S1700000, .i32⟩ : BufTy).Contents (Elt F)) : (⟨S1700000, .i32⟩ : BufTy).Contents (Elt F) :=
  (select (cmpi .slt v (broadcastInDim S1700000 ![] bcast_S_S1700000 (constantI S_ 32 0#32))) (addi v (broadcastInDim S1700000 ![] bcast_S_S1700000 (constantI S_ 32 100000#32))) v)

/-- Per node: 1/√(max(deg, 1)) where the in-degree deg (a sum of ones over the edges into the node) is positive, else 0. -/
def dinvOf (dst : (⟨S1700000, .i32⟩ : BufTy).Contents (Elt F)) : (⟨S100000, .f32⟩ : BufTy).Contents (Elt F) :=
  (select (cmpf (F := F) .ogt (Host.scatterAdd scatter_S100000_S1700000x1_S1700000_n_0_0_1 (broadcastInDim S100000 ![] bcast_S_S100000 (constant S_ .f32 0x00000000#32)) (broadcastInDim S1700000x1 ![0] bcast_S1700000_S1700000x1_0 dst) (broadcastInDim S1700000 ![] bcast_S_S1700000 (constant S_ .f32 0x3F800000#32))) (broadcastInDim S100000 ![] bcast_S_S100000 (constant S_ .f32 0x00000000#32))) (Host.rsqrt (maximumf (Host.scatterAdd scatter_S100000_S1700000x1_S1700000_n_0_0_1 (broadcastInDim S100000 ![] bcast_S_S100000 (constant S_ .f32 0x00000000#32)) (broadcastInDim S1700000x1 ![0] bcast_S1700000_S1700000x1_0 dst) (broadcastInDim S1700000 ![] bcast_S_S1700000 (constant S_ .f32 0x3F800000#32))) (broadcastInDim S100000 ![] bcast_S_S100000 (constant S_ .f32 0x3F800000#32)))) (broadcastInDim S100000 ![] bcast_S_S100000 (id (constant S_ .f32 0x00000000#32))))

/-- Per edge: the product of the inverse-root degrees at its source and at its destination. -/
def normOf (src dst : (⟨S1700000, .i32⟩ : BufTy).Contents (Elt F)) : (⟨S1700000, .f32⟩ : BufTy).Contents (Elt F) :=
  (mulf (Host.gather gather_S100000_S1700000x1_S1700000_n_0_n_n_0_1_1 (dinvOf (F := F) dst) (broadcastInDim S1700000x1 ![0] bcast_S1700000_S1700000x1_0 (wrapIdx (F := F) src))) (Host.gather gather_S100000_S1700000x1_S1700000_n_0_n_n_0_1_1 (dinvOf (F := F) dst) (broadcastInDim S1700000x1 ![0] bcast_S1700000_S1700000x1_0 (wrapIdx (F := F) dst))))

/-- One aggregation: h's rows gathered at the sources, each scaled by its edge's weight, summed into the destinations. -/
def agg (src dst : (⟨S1700000, .i32⟩ : BufTy).Contents (Elt F)) (nrm : (⟨S1700000, .f32⟩ : BufTy).Contents (Elt F)) (h : (⟨S100000x128, .f32⟩ : BufTy).Contents (Elt F)) : (⟨S100000x128, .f32⟩ : BufTy).Contents (Elt F) :=
  (Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 dst) (mulf (Host.gather gather_S100000x128_S1700000x1_S1700000x128_1_0_n_n_0_1_1128 h (broadcastInDim S1700000x1 ![0] bcast_S1700000_S1700000x1_0 (wrapIdx (F := F) src))) (broadcastInDim S1700000x128 ![0, 1] bcast_S1700000x1_S1700000x128_0_1 (broadcastInDim S1700000x1 ![0] bcast_S1700000_S1700000x1_0 nrm))))

/-- The whole reference network as a function of its ten arguments. -/
def net (x0 : (⟨S100000x1, .f32⟩ : BufTy).Contents (Elt F)) (x1 : (⟨S2x1600000, .i32⟩ : BufTy).Contents (Elt F)) (x2 : (⟨S1x128, .f32⟩ : BufTy).Contents (Elt F)) (x3 : (⟨S128, .f32⟩ : BufTy).Contents (Elt F))
    (x4 : (⟨S128x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F))
    (x8 : (⟨S128x64, .f32⟩ : BufTy).Contents (Elt F)) (x9 : (⟨S64, .f32⟩ : BufTy).Contents (Elt F)) : (⟨S100000x64, .f32⟩ : BufTy).Contents (Elt F) :=
  (addf (Host.dotGeneral dot_S100000x128_S128x64_S100000x64_1_0_0_1_n_n none (addf (agg (F := F) (srcOf (F := F) x1) (dstOf (F := F) x1) (normOf (F := F) (srcOf (F := F) x1) (dstOf (F := F) x1)) (Host.dotGeneral dot_S100000x128_S128x128_S100000x128_1_0_0_1_n_n none (maximumf (addf (agg (F := F) (srcOf (F := F) x1) (dstOf (F := F) x1) (normOf (F := F) (srcOf (F := F) x1) (dstOf (F := F) x1)) (Host.dotGeneral dot_S100000x128_S128x128_S100000x128_1_0_0_1_n_n none (maximumf (addf (agg (F := F) (srcOf (F := F) x1) (dstOf (F := F) x1) (normOf (F := F) (srcOf (F := F) x1) (dstOf (F := F) x1)) (Host.dotGeneral dot_S100000x1_S1x128_S100000x128_1_0_0_1_n_n none x0 x2)) (broadcastInDim S100000x128 ![0, 1] bcast_S1x128_S100000x128_0_1 (broadcastInDim S1x128 ![1] bcast_S128_S1x128_1 x3))) (broadcastInDim S100000x128 ![] bcast_S_S100000x128 (constant S_ .f32 0x00000000#32))) x4)) (broadcastInDim S100000x128 ![0, 1] bcast_S1x128_S100000x128_0_1 (broadcastInDim S1x128 ![1] bcast_S128_S1x128_1 x5))) (broadcastInDim S100000x128 ![] bcast_S_S100000x128 (constant S_ .f32 0x00000000#32))) x6)) (broadcastInDim S100000x128 ![0, 1] bcast_S1x128_S100000x128_0_1 (broadcastInDim S1x128 ![1] bcast_S128_S1x128_1 x7))) x8) (broadcastInDim S100000x64 ![0, 1] bcast_S1x64_S100000x64_0_1 (broadcastInDim S1x64 ![1] bcast_S64_S1x64_1 x9)))

/-- The reference run's result term is the network of the argument arrays. -/
theorem res_eq_net (m : (ℓ : Loc nD τ sig) → Buf (Elt F) ℓ) (c : Dev nD) :
    Cert.ReferenceIdeal.ValueP.res_main_v118 (F := F) m c
      = net (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  unfold Cert.ReferenceIdeal.ValueP.res_main_v118 net agg normOf dinvOf wrapIdx srcOf dstOf
  rfl

end Cert.ReferenceIdeal.Layers

end
-- ==== Proof.RefForms.lean ====
/-
  The reference's host operations as the layer arithmetic, at the ideal values: a dot_general of plain dimension
  numbers is the matrix product entry by entry; a bias vector placed on a one-row array and spread down the rows, then
  added, is the bias row added to every row; the maximum with a zero splat is the positive part. So the reference
  network is three aggregated products with their bias rows (two followed by the positive part) and the last product
  with its bias row, written over the same layer functions a kernel launch computes.
-/
import proofs.«141334_j10161892622615_1_alg».proof.Proof.RefLayers
import proofs.«141334_j10161892622615_1_alg».proof.Proof.Spec
import Idealize.ShloMosaic.Lib.KernelVsHost

set_option maxRecDepth 16384

noncomputable section

namespace Cert.ReferenceIdeal.Layers

open Cert.ReferenceIdeal Cert.ReferenceIdeal.Gen Idealize.ShloMosaic Idealize.ShloMosaic.TcCoe Idealize.SL.Sem Idealize.ShloMosaic.StableHlo
open Idealize.ShloMosaic.ValueIdx Cert.Gcn

/-- The first layer's product [100000, 1]·[1, 128] on the host is the matrix product. -/
theorem dot1_eq (x : FVec Ideal S100000x1 .f32) (w : FVec Ideal S1x128 .f32) :
    Host.dotGeneral dot_S100000x1_S1x128_S100000x128_1_0_0_1_n_n none x w = mm x w := by
  funext i
  obtain ⟨r, q, rfl⟩ : ∃ (r : Fin 100000) (q : Fin 128), i = ix2 r q := ⟨i 0, i 1, eq_ix2 i⟩
  simp only [Host.dotGeneral]
  exact dotGeneral_plain_apply dot_S100000x1_S1x128_S100000x128_1_0_0_1_n_n rfl none _ x w r q

/-- A hidden layer's product [100000, 128]·[128, 128] on the host is the matrix product. -/
theorem dot128_eq (x : FVec Ideal S100000x128 .f32) (w : FVec Ideal S128x128 .f32) :
    Host.dotGeneral dot_S100000x128_S128x128_S100000x128_1_0_0_1_n_n none x w = mm x w := by
  funext i
  obtain ⟨r, q, rfl⟩ : ∃ (r : Fin 100000) (q : Fin 128), i = ix2 r q := ⟨i 0, i 1, eq_ix2 i⟩
  simp only [Host.dotGeneral]
  exact dotGeneral_plain_apply dot_S100000x128_S128x128_S100000x128_1_0_0_1_n_n rfl none _ x w r q

/-- The head's product [100000, 128]·[128, 64] on the host is the matrix product. -/
theorem dot64_eq (x : FVec Ideal S100000x128 .f32) (w : FVec Ideal S128x64 .f32) :
    Host.dotGeneral dot_S100000x128_S128x64_S100000x64_1_0_0_1_n_n none x w = mm x w := by
  funext i
  obtain ⟨r, q, rfl⟩ : ∃ (r : Fin 100000) (q : Fin 64), i = ix2 r q := ⟨i 0, i 1, eq_ix2 i⟩
  simp only [Host.dotGeneral]
  exact dotGeneral_plain_apply dot_S100000x128_S128x64_S100000x64_1_0_0_1_n_n rfl none _ x w r q

/-- A bias vector of 128 entries put on a one-row array, spread down the 100000 rows and added: the bias row added to
    every row, for any one-row array r holding the vector's entries. -/
theorem bias128_eq (s : FVec Ideal S100000x128 .f32) (b : FVec Ideal S128 .f32) (r : FVec Ideal S1x128 .f32)
    (hr : ∀ q : Fin 128, r (ix2 (0 : Fin 1) q) = b (ix1 q)) :
    addf s (broadcastInDim S100000x128 ![0, 1] bcast_S1x128_S100000x128_0_1 (broadcastInDim S1x128 ![1] bcast_S128_S1x128_1 b))
      = addRow s r := by
  funext i
  obtain ⟨p, q, rfl⟩ : ∃ (p : Fin 100000) (q : Fin 128), i = ix2 p q := ⟨i 0, i 1, eq_ix2 i⟩
  show FloatOps.addf (s (ix2 p q)) (broadcastInDim S100000x128 ![0, 1] bcast_S1x128_S100000x128_0_1 (broadcastInDim S1x128 ![1] bcast_S128_S1x128_1 b) (ix2 p q))
    = FloatOps.addf (s (ix2 p q)) (r (ix2 (0 : Fin 1) q))
  rw [broadcastInDim_oneRow_apply, hr]
  refine congrArg _ (broadcastInDim_apply ![1] bcast_S128_S1x128_1 b (ix2 (0 : Fin 1) q) (ix1 q) fun a => ?_)
  match a with
  | ⟨0, _⟩ =>
    show q.val = if (128 : ℕ) = 1 then 0 else q.val
    rw [if_neg (by decide)]

/-- The same for the head's bias vector of 64 entries. -/
theorem bias64_eq (s : FVec Ideal S100000x64 .f32) (b : FVec Ideal S64 .f32) (r : FVec Ideal S1x64 .f32)
    (hr : ∀ q : Fin 64, r (ix2 (0 : Fin 1) q) = b (ix1 q)) :
    addf s (broadcastInDim S100000x64 ![0, 1] bcast_S1x64_S100000x64_0_1 (broadcastInDim S1x64 ![1] bcast_S64_S1x64_1 b))
      = addRow s r := by
  funext i
  obtain ⟨p, q, rfl⟩ : ∃ (p : Fin 100000) (q : Fin 64), i = ix2 p q := ⟨i 0, i 1, eq_ix2 i⟩
  show FloatOps.addf (s (ix2 p q)) (broadcastInDim S100000x64 ![0, 1] bcast_S1x64_S100000x64_0_1 (broadcastInDim S1x64 ![1] bcast_S64_S1x64_1 b) (ix2 p q))
    = FloatOps.addf (s (ix2 p q)) (r (ix2 (0 : Fin 1) q))
  rw [broadcastInDim_oneRow_apply, hr]
  refine congrArg _ (broadcastInDim_apply ![1] bcast_S64_S1x64_1 b (ix2 (0 : Fin 1) q) (ix1 q) fun a => ?_)
  match a with
  | ⟨0, _⟩ =>
    show q.val = if (64 : ℕ) = 1 then 0 else q.val
    rw [if_neg (by decide)]

/-- The maximum with the zero splat is the positive part. -/
theorem relu_eq (s : FVec Ideal S100000x128 .f32) :
    maximumf s (broadcastInDim S100000x128 ![] bcast_S_S100000x128 (constant S_ .f32 0x00000000#32)) = relu s := by
  funext i
  show FloatOps.maximumf (s i) (broadcastInDim S100000x128 ![] bcast_S_S100000x128 (constant (F := Ideal) S_ .f32 0x00000000#32) i) = _
  rw [broadcastInDim_apply ![] bcast_S_S100000x128 (constant (F := Ideal) S_ .f32 0x00000000#32) i (fun a => a.elim0) (fun a => a.elim0)]
  rfl

/-- The network over the layer functions: r3, r5, r7, r9 are the bias rows as one-row arrays. -/
def netSpec (x0 : FVec Ideal S100000x1 .f32) (x1 : (⟨S2x1600000, .i32⟩ : BufTy).Contents (Elt Ideal)) (x2 : FVec Ideal S1x128 .f32) (r3 : FVec Ideal S1x128 .f32)
    (x4 : FVec Ideal S128x128 .f32) (r5 : FVec Ideal S1x128 .f32) (x6 : FVec Ideal S128x128 .f32) (r7 : FVec Ideal S1x128 .f32)
    (x8 : FVec Ideal S128x64 .f32) (r9 : FVec Ideal S1x64 .f32) : FVec Ideal S100000x64 .f32 :=
  addRow (mm (addRow (agg (F := Ideal) (srcOf (F := Ideal) x1) (dstOf (F := Ideal) x1) (normOf (F := Ideal) (srcOf (F := Ideal) x1) (dstOf (F := Ideal) x1))
      (mm (relu (addRow (agg (F := Ideal) (srcOf (F := Ideal) x1) (dstOf (F := Ideal) x1) (normOf (F := Ideal) (srcOf (F := Ideal) x1) (dstOf (F := Ideal) x1))
        (mm (relu (addRow (agg (F := Ideal) (srcOf (F := Ideal) x1) (dstOf (F := Ideal) x1) (normOf (F := Ideal) (srcOf (F := Ideal) x1) (dstOf (F := Ideal) x1))
          (mm x0 x2)) r3)) x4)) r5)) x6)) r7) x8) r9

/-- The reference network is the network over the layer functions, for one-row arrays holding the bias vectors. -/
theorem net_eq_netSpec (x0 : FVec Ideal S100000x1 .f32) (x1 : (⟨S2x1600000, .i32⟩ : BufTy).Contents (Elt Ideal)) (x2 : FVec Ideal S1x128 .f32) (x3 : FVec Ideal S128 .f32)
    (x4 : FVec Ideal S128x128 .f32) (x5 : FVec Ideal S128 .f32) (x6 : FVec Ideal S128x128 .f32) (x7 : FVec Ideal S128 .f32)
    (x8 : FVec Ideal S128x64 .f32) (x9 : FVec Ideal S64 .f32)
    (r3 r5 r7 : FVec Ideal S1x128 .f32) (r9 : FVec Ideal S1x64 .f32)
    (h3 : ∀ q : Fin 128, r3 (ix2 (0 : Fin 1) q) = x3 (ix1 q)) (h5 : ∀ q : Fin 128, r5 (ix2 (0 : Fin 1) q) = x5 (ix1 q))
    (h7 : ∀ q : Fin 128, r7 (ix2 (0 : Fin 1) q) = x7 (ix1 q)) (h9 : ∀ q : Fin 64, r9 (ix2 (0 : Fin 1) q) = x9 (ix1 q)) :
    net (F := Ideal) x0 x1 x2 x3 x4 x5 x6 x7 x8 x9 = netSpec x0 x1 x2 r3 x4 r5 x6 r7 x8 r9 := by
  unfold net netSpec
  rw [dot1_eq, bias128_eq _ x3 r3 h3, relu_eq, dot128_eq, bias128_eq _ x5 r5 h5, relu_eq, dot128_eq, bias128_eq _ x7 r7 h7,
    dot64_eq, bias64_eq _ x9 r9 h9]

end Cert.ReferenceIdeal.Layers

end
-- ==== Proof.KernelKept.lean ====
/-
  Arrays that ride through the program untouched. An argument array, and the edge arrays and edge weights computed
  before the first launch, are written by no later host operation and by no launch (a launch writes only its output
  window's array); so at every later boundary of the fold through the program each still holds what it held: an
  argument its launch contents, an edge array what the first stretch computed.
-/
import proofs.«141334_j10161892622615_1_alg».proof.Proof.Gen.KernelIdeal.Frame
import Idealize.ShloMosaic.PureOps.Ideal

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- No operation of the named stretch writes the buffer: each operation's result buffer is another one. -/
macro "not_written_by " ops:ident : tactic =>
  `(tactic| (simp only [$ops:ident, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]; (repeat' (apply And.intro)); all_goals (exact StableHlo.devRef_ne_of_ne (by decide))))

theorem kept_arg0_3 : W3 m ρ c (Proc.devRef .tc main_arg0) = m ((c : Thread nD τ).loc main_arg0) := by
  refine (show W3 m ρ c (Proc.devRef .tc main_arg0) = W2 m ρ c (Proc.devRef .tc main_arg0) from
    StableHlo.after_of_forall_not_mem (b := Proc.devRef .tc main_arg0) _ _ (List.forall_iff_forall_mem.mp (by not_written_by hostOps0_2))).trans ?_
  refine (show W2 m ρ c (Proc.devRef .tc main_arg0) = W1 m ρ c (Proc.devRef .tc main_arg0) from
    StableHlo.after_of_forall_not_mem (b := Proc.devRef .tc main_arg0) _ _ (List.forall_iff_forall_mem.mp (by not_written_by hostOps0_1))).trans ?_
  refine (show W1 m ρ c (Proc.devRef .tc main_arg0) = W0 m ρ c (Proc.devRef .tc main_arg0) from
    StableHlo.after_of_forall_not_mem (b := Proc.devRef .tc main_arg0) _ _ (List.forall_iff_forall_mem.mp (by not_written_by hostOps0))).trans ?_
  rfl

theorem kept_arg2_3 : W3 m ρ c (Proc.devRef .tc main_arg2) = m ((c : Thread nD τ).loc main_arg2) := by
  refine (show W3 m ρ c (Proc.devRef .tc main_arg2) = W2 m ρ c (Proc.devRef .tc main_arg2) from
    StableHlo.after_of_forall_not_mem (b := Proc.devRef .tc main_arg2) _ _ (List.forall_iff_forall_mem.mp (by not_written_by hostOps0_2))).trans ?_
  refine (show W2 m ρ c (Proc.devRef .tc main_arg2) = W1 m ρ c (Proc.devRef .tc main_arg2) from
    StableHlo.after_of_forall_not_mem (b := Proc.devRef .tc main_arg2) _ _ (List.forall_iff_forall_mem.mp (by not_written_by hostOps0_1))).trans ?_
  refine (show W1 m ρ c (Proc.devRef .tc main_arg2) = W0 m ρ c (Proc.devRef .tc main_arg2) from
    StableHlo.after_of_forall_not_mem (b := Proc.devRef .tc main_arg2) _ _ (List.forall_iff_forall_mem.mp (by not_written_by hostOps0))).trans ?_
  rfl

theorem kept_arg3_4 : W4 m ρ c (Proc.devRef .tc main_arg3) = m ((c : Thread nD τ).loc main_arg3) := by
  refine (W4_of_ne m ρ c main_arg3 (by decide)).trans ?_
  refine (show W3 m ρ c (Proc.devRef .tc main_arg3) = W2 m ρ c (Proc.devRef .tc main_arg3) from
    StableHlo.after_of_forall_not_mem (b := Proc.devRef .tc main_arg3) _ _ (List.forall_iff_forall_mem.mp (by not_written_by hostOps0_2))).trans ?_
  refine (show W2 m ρ c (Proc.devRef .tc main_arg3) = W1 m ρ c (Proc.devRef .tc main_arg3) from
    StableHlo.after_of_forall_not_mem (b := Proc.devRef .tc main_arg3) _ _ (List.forall_iff_forall_mem.mp (by not_written_by hostOps0_1))).trans ?_
  refine (show W1 m ρ c (Proc.devRef .tc main_arg3) = W0 m ρ c (Proc.devRef .tc main_arg3) from
    StableHlo.after_of_forall_not_mem (b := Proc.devRef .tc main_arg3) _ _ (List.forall_iff_forall_mem.mp (by not_written_by hostOps0))).trans ?_
  rfl

theorem kept_arg4_6 : W6 m ρ c (Proc.devRef .tc main_arg4) = m ((c : Thread nD τ).loc main_arg4) := by
  refine (W6_of_ne m ρ c main_arg4 (by decide)).trans ?_
  refine (show W5 m ρ c (Proc.devRef .tc main_arg4) = W4 m ρ c (Proc.devRef .tc main_arg4) from
    StableHlo.after_of_forall_not_mem (b := Proc.devRef .tc main_arg4) _ _ (List.forall_iff_forall_mem.mp (by not_written_by hostOps1))).trans ?_
  refine (W4_of_ne m ρ c main_arg4 (by decide)).trans ?_
  refine (show W3 m ρ c (Proc.devRef .tc main_arg4) = W2 m ρ c (Proc.devRef .tc main_arg4) from
    StableHlo.after_of_forall_not_mem (b := Proc.devRef .tc main_arg4) _ _ (List.forall_iff_forall_mem.mp (by not_written_by hostOps0_2))).trans ?_
  refine (show W2 m ρ c (Proc.devRef .tc main_arg4) = W1 m ρ c (Proc.devRef .tc main_arg4) from
    StableHlo.after_of_forall_not_mem (b := Proc.devRef .tc main_arg4) _ _ (List.forall_iff_forall_mem.mp (by not_written_by hostOps0_1))).trans ?_
  refine (show W1 m ρ c (Proc.devRef .tc main_arg4) = W0 m ρ c (Proc.devRef .tc main_arg4) from
    StableHlo.after_of_forall_not_mem (b := Proc.devRef .tc main_arg4) _ _ (List.forall_iff_forall_mem.mp (by not_written_by hostOps0))).trans ?_
  rfl

theorem kept_arg5_7 : W7 m ρ c (Proc.devRef .tc main_arg5) = m ((c : Thread nD τ).loc main_arg5) := by
  refine (W7_of_ne m ρ c main_arg5 (by decide)).trans ?_
  refine (W6_of_ne m ρ c main_arg5 (by decide)).trans ?_
  refine (show W5 m ρ c (Proc.devRef .tc main_arg5) = W4 m ρ c (Proc.devRef .tc main_arg5) from
    StableHlo.after_of_forall_not_mem (b := Proc.devRef .tc main_arg5) _ _ (List.forall_iff_forall_mem.mp (by not_written_by hostOps1))).trans ?_
  refine (W4_of_ne m ρ c main_arg5 (by decide)).trans ?_
  refine (show W3 m ρ c (Proc.devRef .tc main_arg5) = W2 m ρ c (Proc.devRef .tc main_arg5) from
    StableHlo.after_of_forall_not_mem (b := Proc.devRef .tc main_arg5) _ _ (List.forall_iff_forall_mem.mp (by not_written_by hostOps0_2))).trans ?_
  refine (show W2 m ρ c (Proc.devRef .tc main_arg5) = W1 m ρ c (Proc.devRef .tc main_arg5) from
    StableHlo.after_of_forall_not_mem (b := Proc.devRef .tc main_arg5) _ _ (List.forall_iff_forall_mem.mp (by not_written_by hostOps0_1))).trans ?_
  refine (show W1 m ρ c (Proc.devRef .tc main_arg5) = W0 m ρ c (Proc.devRef .tc main_arg5) from
    StableHlo.after_of_forall_not_mem (b := Proc.devRef .tc main_arg5) _ _ (List.forall_iff_forall_mem.mp (by not_written_by hostOps0))).trans ?_
  rfl

theorem kept_arg6_9 : W9 m ρ c (Proc.devRef .tc main_arg6) = m ((c : Thread nD τ).loc main_arg6) := by
  refine (W9_of_ne m ρ c main_arg6 (by decide)).trans ?_
  refine (show W8 m ρ c (Proc.devRef .tc main_arg6) = W7 m ρ c (Proc.devRef .tc main_arg6) from
    StableHlo.after_of_forall_not_mem (b := Proc.devRef .tc main_arg6) _ _ (List.forall_iff_forall_mem.mp (by not_written_by hostOps3))).trans ?_
  refine (W7_of_ne m ρ c main_arg6 (by decide)).trans ?_
  refine (W6_of_ne m ρ c main_arg6 (by decide)).trans ?_
  refine (show W5 m ρ c (Proc.devRef .tc main_arg6) = W4 m ρ c (Proc.devRef .tc main_arg6) from
    StableHlo.after_of_forall_not_mem (b := Proc.devRef .tc main_arg6) _ _ (List.forall_iff_forall_mem.mp (by not_written_by hostOps1))).trans ?_
  refine (W4_of_ne m ρ c main_arg6 (by decide)).trans ?_
  refine (show W3 m ρ c (Proc.devRef .tc main_arg6) = W2 m ρ c (Proc.devRef .tc main_arg6) from
    StableHlo.after_of_forall_not_mem (b := Proc.devRef .tc main_arg6) _ _ (List.forall_iff_forall_mem.mp (by not_written_by hostOps0_2))).trans ?_
  refine (show W2 m ρ c (Proc.devRef .tc main_arg6) = W1 m ρ c (Proc.devRef .tc main_arg6) from
    StableHlo.after_of_forall_not_mem (b := Proc.devRef .tc main_arg6) _ _ (List.forall_iff_forall_mem.mp (by not_written_by hostOps0_1))).trans ?_
  refine (show W1 m ρ c (Proc.devRef .tc main_arg6) = W0 m ρ c (Proc.devRef .tc main_arg6) from
    StableHlo.after_of_forall_not_mem (b := Proc.devRef .tc main_arg6) _ _ (List.forall_iff_forall_mem.mp (by not_written_by hostOps0))).trans ?_
  rfl

theorem kept_arg7_10 : W10 m ρ c (Proc.devRef .tc main_arg7) = m ((c : Thread nD τ).loc main_arg7) := by
  refine (W10_of_ne m ρ c main_arg7 (by decide)).trans ?_
  refine (W9_of_ne m ρ c main_arg7 (by decide)).trans ?_
  refine (show W8 m ρ c (Proc.devRef .tc main_arg7) = W7 m ρ c (Proc.devRef .tc main_arg7) from
    StableHlo.after_of_forall_not_mem (b := Proc.devRef .tc main_arg7) _ _ (List.forall_iff_forall_mem.mp (by not_written_by hostOps3))).trans ?_
  refine (W7_of_ne m ρ c main_arg7 (by decide)).trans ?_
  refine (W6_of_ne m ρ c main_arg7 (by decide)).trans ?_
  refine (show W5 m ρ c (Proc.devRef .tc main_arg7) = W4 m ρ c (Proc.devRef .tc main_arg7) from
    StableHlo.after_of_forall_not_mem (b := Proc.devRef .tc main_arg7) _ _ (List.forall_iff_forall_mem.mp (by not_written_by hostOps1))).trans ?_
  refine (W4_of_ne m ρ c main_arg7 (by decide)).trans ?_
  refine (show W3 m ρ c (Proc.devRef .tc main_arg7) = W2 m ρ c (Proc.devRef .tc main_arg7) from
    StableHlo.after_of_forall_not_mem (b := Proc.devRef .tc main_arg7) _ _ (List.forall_iff_forall_mem.mp (by not_written_by hostOps0_2))).trans ?_
  refine (show W2 m ρ c (Proc.devRef .tc main_arg7) = W1 m ρ c (Proc.devRef .tc main_arg7) from
    StableHlo.after_of_forall_not_mem (b := Proc.devRef .tc main_arg7) _ _ (List.forall_iff_forall_mem.mp (by not_written_by hostOps0_1))).trans ?_
  refine (show W1 m ρ c (Proc.devRef .tc main_arg7) = W0 m ρ c (Proc.devRef .tc main_arg7) from
    StableHlo.after_of_forall_not_mem (b := Proc.devRef .tc main_arg7) _ _ (List.forall_iff_forall_mem.mp (by not_written_by hostOps0))).trans ?_
  rfl

theorem kept_arg8_13 : W13 m ρ c (Proc.devRef .tc main_arg8) = m ((c : Thread nD τ).loc main_arg8) := by
  refine (show W13 m ρ c (Proc.devRef .tc main_arg8) = W12 m ρ c (Proc.devRef .tc main_arg8) from
    StableHlo.after_of_forall_not_mem (b := Proc.devRef .tc main_arg8) _ _ (List.forall_iff_forall_mem.mp (by not_written_by hostOps6))).trans ?_
  refine (W12_of_ne m ρ c main_arg8 (by decide)).trans ?_
  refine (show W11 m ρ c (Proc.devRef .tc main_arg8) = W10 m ρ c (Proc.devRef .tc main_arg8) from
    StableHlo.after_of_forall_not_mem (b := Proc.devRef .tc main_arg8) _ _ (List.forall_iff_forall_mem.mp (by not_written_by hostOps5))).trans ?_
  refine (W10_of_ne m ρ c main_arg8 (by decide)).trans ?_
  refine (W9_of_ne m ρ c main_arg8 (by decide)).trans ?_
  refine (show W8 m ρ c (Proc.devRef .tc main_arg8) = W7 m ρ c (Proc.devRef .tc main_arg8) from
    StableHlo.after_of_forall_not_mem (b := Proc.devRef .tc main_arg8) _ _ (List.forall_iff_forall_mem.mp (by not_written_by hostOps3))).trans ?_
  refine (W7_of_ne m ρ c main_arg8 (by decide)).trans ?_
  refine (W6_of_ne m ρ c main_arg8 (by decide)).trans ?_
  refine (show W5 m ρ c (Proc.devRef .tc main_arg8) = W4 m ρ c (Proc.devRef .tc main_arg8) from
    StableHlo.after_of_forall_not_mem (b := Proc.devRef .tc main_arg8) _ _ (List.forall_iff_forall_mem.mp (by not_written_by hostOps1))).trans ?_
  refine (W4_of_ne m ρ c main_arg8 (by decide)).trans ?_
  refine (show W3 m ρ c (Proc.devRef .tc main_arg8) = W2 m ρ c (Proc.devRef .tc main_arg8) from
    StableHlo.after_of_forall_not_mem (b := Proc.devRef .tc main_arg8) _ _ (List.forall_iff_forall_mem.mp (by not_written_by hostOps0_2))).trans ?_
  refine (show W2 m ρ c (Proc.devRef .tc main_arg8) = W1 m ρ c (Proc.devRef .tc main_arg8) from
    StableHlo.after_of_forall_not_mem (b := Proc.devRef .tc main_arg8) _ _ (List.forall_iff_forall_mem.mp (by not_written_by hostOps0_1))).trans ?_
  refine (show W1 m ρ c (Proc.devRef .tc main_arg8) = W0 m ρ c (Proc.devRef .tc main_arg8) from
    StableHlo.after_of_forall_not_mem (b := Proc.devRef .tc main_arg8) _ _ (List.forall_iff_forall_mem.mp (by not_written_by hostOps0))).trans ?_
  rfl

theorem kept_arg9_12 : W12 m ρ c (Proc.devRef .tc main_arg9) = m ((c : Thread nD τ).loc main_arg9) := by
  refine (W12_of_ne m ρ c main_arg9 (by decide)).trans ?_
  refine (show W11 m ρ c (Proc.devRef .tc main_arg9) = W10 m ρ c (Proc.devRef .tc main_arg9) from
    StableHlo.after_of_forall_not_mem (b := Proc.devRef .tc main_arg9) _ _ (List.forall_iff_forall_mem.mp (by not_written_by hostOps5))).trans ?_
  refine (W10_of_ne m ρ c main_arg9 (by decide)).trans ?_
  refine (W9_of_ne m ρ c main_arg9 (by decide)).trans ?_
  refine (show W8 m ρ c (Proc.devRef .tc main_arg9) = W7 m ρ c (Proc.devRef .tc main_arg9) from
    StableHlo.after_of_forall_not_mem (b := Proc.devRef .tc main_arg9) _ _ (List.forall_iff_forall_mem.mp (by not_written_by hostOps3))).trans ?_
  refine (W7_of_ne m ρ c main_arg9 (by decide)).trans ?_
  refine (W6_of_ne m ρ c main_arg9 (by decide)).trans ?_
  refine (show W5 m ρ c (Proc.devRef .tc main_arg9) = W4 m ρ c (Proc.devRef .tc main_arg9) from
    StableHlo.after_of_forall_not_mem (b := Proc.devRef .tc main_arg9) _ _ (List.forall_iff_forall_mem.mp (by not_written_by hostOps1))).trans ?_
  refine (W4_of_ne m ρ c main_arg9 (by decide)).trans ?_
  refine (show W3 m ρ c (Proc.devRef .tc main_arg9) = W2 m ρ c (Proc.devRef .tc main_arg9) from
    StableHlo.after_of_forall_not_mem (b := Proc.devRef .tc main_arg9) _ _ (List.forall_iff_forall_mem.mp (by not_written_by hostOps0_2))).trans ?_
  refine (show W2 m ρ c (Proc.devRef .tc main_arg9) = W1 m ρ c (Proc.devRef .tc main_arg9) from
    StableHlo.after_of_forall_not_mem (b := Proc.devRef .tc main_arg9) _ _ (List.forall_iff_forall_mem.mp (by not_written_by hostOps0_1))).trans ?_
  refine (show W1 m ρ c (Proc.devRef .tc main_arg9) = W0 m ρ c (Proc.devRef .tc main_arg9) from
    StableHlo.after_of_forall_not_mem (b := Proc.devRef .tc main_arg9) _ _ (List.forall_iff_forall_mem.mp (by not_written_by hostOps0))).trans ?_
  rfl

theorem kept_v3_4 : W4 m ρ c (Proc.devRef .tc main_v3) = W3 m ρ c (Proc.devRef .tc main_v3) := by
  refine (W4_of_ne m ρ c main_v3 (by decide)).trans ?_
  rfl

theorem kept_v3_7 : W7 m ρ c (Proc.devRef .tc main_v3) = W3 m ρ c (Proc.devRef .tc main_v3) := by
  refine (W7_of_ne m ρ c main_v3 (by decide)).trans ?_
  refine (W6_of_ne m ρ c main_v3 (by decide)).trans ?_
  refine (show W5 m ρ c (Proc.devRef .tc main_v3) = W4 m ρ c (Proc.devRef .tc main_v3) from
    StableHlo.after_of_forall_not_mem (b := Proc.devRef .tc main_v3) _ _ (List.forall_iff_forall_mem.mp (by not_written_by hostOps1))).trans ?_
  refine (W4_of_ne m ρ c main_v3 (by decide)).trans ?_
  rfl

theorem kept_v3_10 : W10 m ρ c (Proc.devRef .tc main_v3) = W3 m ρ c (Proc.devRef .tc main_v3) := by
  refine (W10_of_ne m ρ c main_v3 (by decide)).trans ?_
  refine (W9_of_ne m ρ c main_v3 (by decide)).trans ?_
  refine (show W8 m ρ c (Proc.devRef .tc main_v3) = W7 m ρ c (Proc.devRef .tc main_v3) from
    StableHlo.after_of_forall_not_mem (b := Proc.devRef .tc main_v3) _ _ (List.forall_iff_forall_mem.mp (by not_written_by hostOps3))).trans ?_
  refine (W7_of_ne m ρ c main_v3 (by decide)).trans ?_
  refine (W6_of_ne m ρ c main_v3 (by decide)).trans ?_
  refine (show W5 m ρ c (Proc.devRef .tc main_v3) = W4 m ρ c (Proc.devRef .tc main_v3) from
    StableHlo.after_of_forall_not_mem (b := Proc.devRef .tc main_v3) _ _ (List.forall_iff_forall_mem.mp (by not_written_by hostOps1))).trans ?_
  refine (W4_of_ne m ρ c main_v3 (by decide)).trans ?_
  rfl

theorem kept_v6_4 : W4 m ρ c (Proc.devRef .tc main_v6) = W3 m ρ c (Proc.devRef .tc main_v6) := by
  refine (W4_of_ne m ρ c main_v6 (by decide)).trans ?_
  rfl

theorem kept_v6_7 : W7 m ρ c (Proc.devRef .tc main_v6) = W3 m ρ c (Proc.devRef .tc main_v6) := by
  refine (W7_of_ne m ρ c main_v6 (by decide)).trans ?_
  refine (W6_of_ne m ρ c main_v6 (by decide)).trans ?_
  refine (show W5 m ρ c (Proc.devRef .tc main_v6) = W4 m ρ c (Proc.devRef .tc main_v6) from
    StableHlo.after_of_forall_not_mem (b := Proc.devRef .tc main_v6) _ _ (List.forall_iff_forall_mem.mp (by not_written_by hostOps1))).trans ?_
  refine (W4_of_ne m ρ c main_v6 (by decide)).trans ?_
  rfl

theorem kept_v6_10 : W10 m ρ c (Proc.devRef .tc main_v6) = W3 m ρ c (Proc.devRef .tc main_v6) := by
  refine (W10_of_ne m ρ c main_v6 (by decide)).trans ?_
  refine (W9_of_ne m ρ c main_v6 (by decide)).trans ?_
  refine (show W8 m ρ c (Proc.devRef .tc main_v6) = W7 m ρ c (Proc.devRef .tc main_v6) from
    StableHlo.after_of_forall_not_mem (b := Proc.devRef .tc main_v6) _ _ (List.forall_iff_forall_mem.mp (by not_written_by hostOps3))).trans ?_
  refine (W7_of_ne m ρ c main_v6 (by decide)).trans ?_
  refine (W6_of_ne m ρ c main_v6 (by decide)).trans ?_
  refine (show W5 m ρ c (Proc.devRef .tc main_v6) = W4 m ρ c (Proc.devRef .tc main_v6) from
    StableHlo.after_of_forall_not_mem (b := Proc.devRef .tc main_v6) _ _ (List.forall_iff_forall_mem.mp (by not_written_by hostOps1))).trans ?_
  refine (W4_of_ne m ρ c main_v6 (by decide)).trans ?_
  rfl

theorem kept_v31_4 : W4 m ρ c (Proc.devRef .tc main_v31) = W3 m ρ c (Proc.devRef .tc main_v31) := by
  refine (W4_of_ne m ρ c main_v31 (by decide)).trans ?_
  rfl

theorem kept_v31_7 : W7 m ρ c (Proc.devRef .tc main_v31) = W3 m ρ c (Proc.devRef .tc main_v31) := by
  refine (W7_of_ne m ρ c main_v31 (by decide)).trans ?_
  refine (W6_of_ne m ρ c main_v31 (by decide)).trans ?_
  refine (show W5 m ρ c (Proc.devRef .tc main_v31) = W4 m ρ c (Proc.devRef .tc main_v31) from
    StableHlo.after_of_forall_not_mem (b := Proc.devRef .tc main_v31) _ _ (List.forall_iff_forall_mem.mp (by not_written_by hostOps1))).trans ?_
  refine (W4_of_ne m ρ c main_v31 (by decide)).trans ?_
  rfl

theorem kept_v31_10 : W10 m ρ c (Proc.devRef .tc main_v31) = W3 m ρ c (Proc.devRef .tc main_v31) := by
  refine (W10_of_ne m ρ c main_v31 (by decide)).trans ?_
  refine (W9_of_ne m ρ c main_v31 (by decide)).trans ?_
  refine (show W8 m ρ c (Proc.devRef .tc main_v31) = W7 m ρ c (Proc.devRef .tc main_v31) from
    StableHlo.after_of_forall_not_mem (b := Proc.devRef .tc main_v31) _ _ (List.forall_iff_forall_mem.mp (by not_written_by hostOps3))).trans ?_
  refine (W7_of_ne m ρ c main_v31 (by decide)).trans ?_
  refine (W6_of_ne m ρ c main_v31 (by decide)).trans ?_
  refine (show W5 m ρ c (Proc.devRef .tc main_v31) = W4 m ρ c (Proc.devRef .tc main_v31) from
    StableHlo.after_of_forall_not_mem (b := Proc.devRef .tc main_v31) _ _ (List.forall_iff_forall_mem.mp (by not_written_by hostOps1))).trans ?_
  refine (W4_of_ne m ρ c main_v31 (by decide)).trans ?_
  rfl

end Cert.KernelIdeal.Chain

end
-- ==== Proof.KernelHost.lean ====
/-
  What the host stretches of the kernel program compute, at the ideal values. Before the first launch: the edge
  sources and destinations (the edge list's rows, each followed by every node once) and the edge weights (the product
  of the inverse-root in-degrees at an edge's two ends). Between launches: the aggregation of the product the last
  launch left — its rows gathered at the sources, scaled by the weights, summed into the destinations — and the next
  bias vector reshaped to a one-row array. These are the reference's own operations on the same operands.
-/
import proofs.«141334_j10161892622615_1_alg».proof.Proof.Gen.KernelIdeal.Frame
import proofs.«141334_j10161892622615_1_alg».proof.Proof.RefLayers
import proofs.«141334_j10161892622615_1_alg».proof.Proof.KernelKept
import Idealize.ShloMosaic.PureOps.Ideal

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo
open Cert.ReferenceIdeal.Layers (srcOf dstOf wrapIdx dinvOf normOf agg)

variable (m : (ℓ : Loc nD τ sig) → Buf (Elt Ideal) ℓ) (ρ : Dev nD → PrngReg) (c : Dev nD)

/-! ## Before the first launch: the edges and their weights, one stretch at a time

The first stretch computes the edge arrays, the in-degree comparison and the inverse root; the second selects between
the inverse root and zero; the third gathers the result at both ends of every edge and multiplies. -/

theorem W1_v3 : W1 m ρ c (Proc.devRef .tc main_v3) = (srcOf (F := Ideal) (m ((c : Thread nD τ).loc main_arg1))) := by
  dsimp only [W1, W0, hostOps0]
  after_results
  rfl

theorem W1_v6 : W1 m ρ c (Proc.devRef .tc main_v6) = (dstOf (F := Ideal) (m ((c : Thread nD τ).loc main_arg1))) := by
  dsimp only [W1, W0, hostOps0]
  after_results
  rfl

set_option maxHeartbeats 4000000 in
theorem W1_v12 : W1 m ρ c (Proc.devRef .tc main_v12)
    = (cmpf (F := Ideal) .ogt (Host.scatterAdd scatter_S100000_S1700000x1_S1700000_n_0_0_1 (broadcastInDim S100000 ![] bcast_S_S100000 (constant S_ .f32 0x00000000#32)) (broadcastInDim S1700000x1 ![0] bcast_S1700000_S1700000x1_0 (dstOf (F := Ideal) (m ((c : Thread nD τ).loc main_arg1)))) (broadcastInDim S1700000 ![] bcast_S_S1700000 (constant S_ .f32 0x3F800000#32))) (broadcastInDim S100000 ![] bcast_S_S100000 (constant S_ .f32 0x00000000#32))) := by
  dsimp only [W1, W0, hostOps0]
  after_results
  rfl

set_option maxHeartbeats 4000000 in
theorem W1_v15 : W1 m ρ c (Proc.devRef .tc main_v15)
    = (Host.rsqrt (F := Ideal) (maximumf (Host.scatterAdd scatter_S100000_S1700000x1_S1700000_n_0_0_1 (broadcastInDim S100000 ![] bcast_S_S100000 (constant S_ .f32 0x00000000#32)) (broadcastInDim S1700000x1 ![0] bcast_S1700000_S1700000x1_0 (dstOf (F := Ideal) (m ((c : Thread nD τ).loc main_arg1)))) (broadcastInDim S1700000 ![] bcast_S_S1700000 (constant S_ .f32 0x3F800000#32))) (broadcastInDim S100000 ![] bcast_S_S100000 (constant S_ .f32 0x3F800000#32)))) := by
  dsimp only [W1, W0, hostOps0]
  after_results
  rfl

set_option maxHeartbeats 4000000 in
theorem W1_cst3 : W1 m ρ c (Proc.devRef .tc main_cst_3) = constant (F := Ideal) S_ .f32 0x00000000#32 := by
  dsimp only [W1, W0, hostOps0]
  after_results

set_option maxHeartbeats 4000000 in
theorem W2_v16 : W2 m ρ c (Proc.devRef .tc main_v16)
    = select (W1 m ρ c (Proc.devRef .tc main_v12)) (W1 m ρ c (Proc.devRef .tc main_v15)) (broadcastInDim S100000 ![] bcast_S_S100000 (id (W1 m ρ c (Proc.devRef .tc main_cst_3)))) := by
  show StableHlo.after hostOps0_1 (W1 m ρ c) (Proc.devRef .tc main_v16) = _
  generalize W1 m ρ c = V
  dsimp only [hostOps0_1]
  after_results
  rfl

theorem W2_v3 : W2 m ρ c (Proc.devRef .tc main_v3) = W1 m ρ c (Proc.devRef .tc main_v3) :=
  (show W2 m ρ c (Proc.devRef .tc main_v3) = W1 m ρ c (Proc.devRef .tc main_v3) from
    StableHlo.after_of_forall_not_mem (b := Proc.devRef .tc main_v3) _ _ (List.forall_iff_forall_mem.mp (by not_written_by hostOps0_1)))

theorem W2_v6 : W2 m ρ c (Proc.devRef .tc main_v6) = W1 m ρ c (Proc.devRef .tc main_v6) :=
  (show W2 m ρ c (Proc.devRef .tc main_v6) = W1 m ρ c (Proc.devRef .tc main_v6) from
    StableHlo.after_of_forall_not_mem (b := Proc.devRef .tc main_v6) _ _ (List.forall_iff_forall_mem.mp (by not_written_by hostOps0_1)))

theorem W3_v3 : W3 m ρ c (Proc.devRef .tc main_v3) = (srcOf (F := Ideal) (m ((c : Thread nD τ).loc main_arg1))) :=
  (show W3 m ρ c (Proc.devRef .tc main_v3) = W2 m ρ c (Proc.devRef .tc main_v3) from
    StableHlo.after_of_forall_not_mem (b := Proc.devRef .tc main_v3) _ _ (List.forall_iff_forall_mem.mp (by not_written_by hostOps0_2))).trans ((W2_v3 m ρ c).trans (W1_v3 m ρ c))

theorem W3_v6 : W3 m ρ c (Proc.devRef .tc main_v6) = (dstOf (F := Ideal) (m ((c : Thread nD τ).loc main_arg1))) :=
  (show W3 m ρ c (Proc.devRef .tc main_v6) = W2 m ρ c (Proc.devRef .tc main_v6) from
    StableHlo.after_of_forall_not_mem (b := Proc.devRef .tc main_v6) _ _ (List.forall_iff_forall_mem.mp (by not_written_by hostOps0_2))).trans ((W2_v6 m ρ c).trans (W1_v6 m ρ c))

set_option maxHeartbeats 4000000 in
theorem W3_v31_gathers : W3 m ρ c (Proc.devRef .tc main_v31)
    = mulf (F := Ideal) (φ := .f32) (Host.gather gather_S100000_S1700000x1_S1700000_n_0_n_n_0_1_1 (W2 m ρ c (Proc.devRef .tc main_v16)) (broadcastInDim S1700000x1 ![0] bcast_S1700000_S1700000x1_0 (wrapIdx (F := Ideal) (W2 m ρ c (Proc.devRef .tc main_v3)))))
        (Host.gather gather_S100000_S1700000x1_S1700000_n_0_n_n_0_1_1 (W2 m ρ c (Proc.devRef .tc main_v16)) (broadcastInDim S1700000x1 ![0] bcast_S1700000_S1700000x1_0 (wrapIdx (F := Ideal) (W2 m ρ c (Proc.devRef .tc main_v6))))) := by
  show StableHlo.after hostOps0_2 (W2 m ρ c) (Proc.devRef .tc main_v31) = _
  generalize W2 m ρ c = V
  dsimp only [hostOps0_2]
  after_results_simp
  rfl

theorem W3_v31 : W3 m ρ c (Proc.devRef .tc main_v31) = (normOf (F := Ideal) (srcOf (F := Ideal) (m ((c : Thread nD τ).loc main_arg1))) (dstOf (F := Ideal) (m ((c : Thread nD τ).loc main_arg1)))) := by
  rw [W3_v31_gathers, W2_v16, W2_v3, W2_v6, W1_v12, W1_v15, W1_cst3, W1_v3, W1_v6]
  unfold normOf dinvOf
  rfl

/-! ## The host stretches between launches -/

set_option maxHeartbeats 4000000 in
/-- After the host stretch: the aggregation of the product just computed, over the edges as the stretch finds them. -/
theorem W5_v45 : W5 m ρ c (Proc.devRef .tc main_v45)
    = agg (F := Ideal) (W4 m ρ c (Proc.devRef .tc main_v3)) (W4 m ρ c (Proc.devRef .tc main_v6)) (W4 m ρ c (Proc.devRef .tc main_v31)) (W4 m ρ c (Proc.devRef .tc main_v32)) := by
  show StableHlo.after hostOps1 (W4 m ρ c) (Proc.devRef .tc main_v45) = _
  generalize W4 m ρ c = V
  dsimp only [hostOps1]
  after_results_simp
  rfl

set_option maxHeartbeats 4000000 in
theorem W5_v46 : W5 m ρ c (Proc.devRef .tc main_v46) = shapeCast S1x128 (W4 m ρ c (Proc.devRef .tc main_arg3)) shapeCasts_S128_S1x128 := by
  show StableHlo.after hostOps1 (W4 m ρ c) (Proc.devRef .tc main_v46) = _
  generalize W4 m ρ c = V
  dsimp only [hostOps1]
  after_results_simp
  rfl

set_option maxHeartbeats 4000000 in
/-- After the host stretch: the aggregation of the product just computed, over the edges as the stretch finds them. -/
theorem W8_v61 : W8 m ρ c (Proc.devRef .tc main_v61)
    = agg (F := Ideal) (W7 m ρ c (Proc.devRef .tc main_v3)) (W7 m ρ c (Proc.devRef .tc main_v6)) (W7 m ρ c (Proc.devRef .tc main_v31)) (W7 m ρ c (Proc.devRef .tc main_v48)) := by
  show StableHlo.after hostOps3 (W7 m ρ c) (Proc.devRef .tc main_v61) = _
  generalize W7 m ρ c = V
  dsimp only [hostOps3]
  after_results_simp
  rfl

set_option maxHeartbeats 4000000 in
theorem W8_v62 : W8 m ρ c (Proc.devRef .tc main_v62) = shapeCast S1x128 (W7 m ρ c (Proc.devRef .tc main_arg5)) shapeCasts_S128_S1x128 := by
  show StableHlo.after hostOps3 (W7 m ρ c) (Proc.devRef .tc main_v62) = _
  generalize W7 m ρ c = V
  dsimp only [hostOps3]
  after_results_simp
  rfl

set_option maxHeartbeats 4000000 in
/-- After the host stretch: the aggregation of the product just computed, over the edges as the stretch finds them. -/
theorem W11_v77 : W11 m ρ c (Proc.devRef .tc main_v77)
    = agg (F := Ideal) (W10 m ρ c (Proc.devRef .tc main_v3)) (W10 m ρ c (Proc.devRef .tc main_v6)) (W10 m ρ c (Proc.devRef .tc main_v31)) (W10 m ρ c (Proc.devRef .tc main_v64)) := by
  show StableHlo.after hostOps5 (W10 m ρ c) (Proc.devRef .tc main_v77) = _
  generalize W10 m ρ c = V
  dsimp only [hostOps5]
  after_results_simp
  rfl

set_option maxHeartbeats 4000000 in
theorem W11_v78 : W11 m ρ c (Proc.devRef .tc main_v78) = shapeCast S1x128 (W10 m ρ c (Proc.devRef .tc main_arg7)) shapeCasts_S128_S1x128 := by
  show StableHlo.after hostOps5 (W10 m ρ c) (Proc.devRef .tc main_v78) = _
  generalize W10 m ρ c = V
  dsimp only [hostOps5]
  after_results_simp
  rfl

set_option maxHeartbeats 4000000 in
theorem W13_v80 : W13 m ρ c (Proc.devRef .tc main_v80) = shapeCast S1x64 (W12 m ρ c (Proc.devRef .tc main_arg9)) shapeCasts_S64_S1x64 := by
  show StableHlo.after hostOps6 (W12 m ρ c) (Proc.devRef .tc main_v80) = _
  generalize W12 m ρ c = V
  dsimp only [hostOps6]
  after_results_simp
  rfl

theorem W13_v79 : W13 m ρ c (Proc.devRef .tc main_v79) = W12 m ρ c (Proc.devRef .tc main_v79) :=
  (show W13 m ρ c (Proc.devRef .tc main_v79) = W12 m ρ c (Proc.devRef .tc main_v79) from
    StableHlo.after_of_forall_not_mem (b := Proc.devRef .tc main_v79) _ _ (List.forall_iff_forall_mem.mp (by not_written_by hostOps6)))

end Cert.KernelIdeal.Chain

end
-- ==== Proof.KernelValue.lean ====
/-
  The idealized kernel program's result as a function of its arguments. The fold through the program is read one
  boundary at a time: each launch's array is its layer function of the arrays it found (the launches' own lemmas); each
  host stretch aggregates the product just computed over the edges; and every array a later step reads is unchanged by
  the steps between. Composed, the result array is the network over the layer functions, of the ten arguments as launched.
-/
import proofs.«141334_j10161892622615_1_alg».proof.Proof.Gen.KernelIdeal.Frame
import proofs.«141334_j10161892622615_1_alg».proof.Proof.Region0
import proofs.«141334_j10161892622615_1_alg».proof.Proof.Region1
import proofs.«141334_j10161892622615_1_alg».proof.Proof.Region2
import proofs.«141334_j10161892622615_1_alg».proof.Proof.Region3
import proofs.«141334_j10161892622615_1_alg».proof.Proof.Region4
import proofs.«141334_j10161892622615_1_alg».proof.Proof.Region5
import proofs.«141334_j10161892622615_1_alg».proof.Proof.Region6
import proofs.«141334_j10161892622615_1_alg».proof.Proof.RefForms
import proofs.«141334_j10161892622615_1_alg».proof.Proof.KernelKept
import proofs.«141334_j10161892622615_1_alg».proof.Proof.KernelHost

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo
open Cert.ReferenceIdeal.Layers (srcOf dstOf wrapIdx dinvOf normOf agg netSpec)
open Cert.Gcn

variable (m : (ℓ : Loc nD τ sig) → Buf (Elt Ideal) ℓ) (ρ : Dev nD → PrngReg) (c : Dev nD)

/-! ## The arrays, launch by launch -/

theorem L1 : W4 m ρ c (Proc.devRef .tc main_v32) = (mm (m ((c : Thread nD τ).loc main_arg0)) (m ((c : Thread nD τ).loc main_arg2))) := by
  refine (W4_arr m ρ c 2).trans ((Cert.KernelIdeal.Region0.final (V3 m ρ) c).trans ?_)
  show mm (W3 m ρ c (Proc.devRef .tc main_arg0)) (W3 m ρ c (Proc.devRef .tc main_arg2)) = _
  rw [kept_arg0_3, kept_arg2_3]

theorem L2 : W5 m ρ c (Proc.devRef .tc main_v45) = (agg (F := Ideal) (srcOf (F := Ideal) (m ((c : Thread nD τ).loc main_arg1))) (dstOf (F := Ideal) (m ((c : Thread nD τ).loc main_arg1))) (normOf (F := Ideal) (srcOf (F := Ideal) (m ((c : Thread nD τ).loc main_arg1))) (dstOf (F := Ideal) (m ((c : Thread nD τ).loc main_arg1)))) (mm (m ((c : Thread nD τ).loc main_arg0)) (m ((c : Thread nD τ).loc main_arg2)))) := by
  rw [W5_v45, kept_v3_4, kept_v6_4, kept_v31_4, W3_v3, W3_v6, W3_v31, L1]

theorem L3 : W6 m ρ c (Proc.devRef .tc main_v47) = (relu (addRow (agg (F := Ideal) (srcOf (F := Ideal) (m ((c : Thread nD τ).loc main_arg1))) (dstOf (F := Ideal) (m ((c : Thread nD τ).loc main_arg1))) (normOf (F := Ideal) (srcOf (F := Ideal) (m ((c : Thread nD τ).loc main_arg1))) (dstOf (F := Ideal) (m ((c : Thread nD τ).loc main_arg1)))) (mm (m ((c : Thread nD τ).loc main_arg0)) (m ((c : Thread nD τ).loc main_arg2)))) (shapeCast S1x128 (m ((c : Thread nD τ).loc main_arg3)) shapeCasts_S128_S1x128))) := by
  refine (W6_arr m ρ c 2).trans ((Cert.KernelIdeal.Region1.final (V5 m ρ) c).trans ?_)
  show relu (addRow (W5 m ρ c (Proc.devRef .tc main_v45)) (W5 m ρ c (Proc.devRef .tc main_v46))) = _
  rw [L2, W5_v46, kept_arg3_4]

theorem L4 : W7 m ρ c (Proc.devRef .tc main_v48) = (mm (relu (addRow (agg (F := Ideal) (srcOf (F := Ideal) (m ((c : Thread nD τ).loc main_arg1))) (dstOf (F := Ideal) (m ((c : Thread nD τ).loc main_arg1))) (normOf (F := Ideal) (srcOf (F := Ideal) (m ((c : Thread nD τ).loc main_arg1))) (dstOf (F := Ideal) (m ((c : Thread nD τ).loc main_arg1)))) (mm (m ((c : Thread nD τ).loc main_arg0)) (m ((c : Thread nD τ).loc main_arg2)))) (shapeCast S1x128 (m ((c : Thread nD τ).loc main_arg3)) shapeCasts_S128_S1x128))) (m ((c : Thread nD τ).loc main_arg4))) := by
  refine (W7_arr m ρ c 2).trans ((Cert.KernelIdeal.Region2.final (V6 m ρ) c).trans ?_)
  show mm (W6 m ρ c (Proc.devRef .tc main_v47)) (W6 m ρ c (Proc.devRef .tc main_arg4)) = _
  rw [L3, kept_arg4_6]

theorem L5 : W8 m ρ c (Proc.devRef .tc main_v61) = (agg (F := Ideal) (srcOf (F := Ideal) (m ((c : Thread nD τ).loc main_arg1))) (dstOf (F := Ideal) (m ((c : Thread nD τ).loc main_arg1))) (normOf (F := Ideal) (srcOf (F := Ideal) (m ((c : Thread nD τ).loc main_arg1))) (dstOf (F := Ideal) (m ((c : Thread nD τ).loc main_arg1)))) (mm (relu (addRow (agg (F := Ideal) (srcOf (F := Ideal) (m ((c : Thread nD τ).loc main_arg1))) (dstOf (F := Ideal) (m ((c : Thread nD τ).loc main_arg1))) (normOf (F := Ideal) (srcOf (F := Ideal) (m ((c : Thread nD τ).loc main_arg1))) (dstOf (F := Ideal) (m ((c : Thread nD τ).loc main_arg1)))) (mm (m ((c : Thread nD τ).loc main_arg0)) (m ((c : Thread nD τ).loc main_arg2)))) (shapeCast S1x128 (m ((c : Thread nD τ).loc main_arg3)) shapeCasts_S128_S1x128))) (m ((c : Thread nD τ).loc main_arg4)))) := by
  rw [W8_v61, kept_v3_7, kept_v6_7, kept_v31_7, W3_v3, W3_v6, W3_v31, L4]

theorem L6 : W9 m ρ c (Proc.devRef .tc main_v63) = (relu (addRow (agg (F := Ideal) (srcOf (F := Ideal) (m ((c : Thread nD τ).loc main_arg1))) (dstOf (F := Ideal) (m ((c : Thread nD τ).loc main_arg1))) (normOf (F := Ideal) (srcOf (F := Ideal) (m ((c : Thread nD τ).loc main_arg1))) (dstOf (F := Ideal) (m ((c : Thread nD τ).loc main_arg1)))) (mm (relu (addRow (agg (F := Ideal) (srcOf (F := Ideal) (m ((c : Thread nD τ).loc main_arg1))) (dstOf (F := Ideal) (m ((c : Thread nD τ).loc main_arg1))) (normOf (F := Ideal) (srcOf (F := Ideal) (m ((c : Thread nD τ).loc main_arg1))) (dstOf (F := Ideal) (m ((c : Thread nD τ).loc main_arg1)))) (mm (m ((c : Thread nD τ).loc main_arg0)) (m ((c : Thread nD τ).loc main_arg2)))) (shapeCast S1x128 (m ((c : Thread nD τ).loc main_arg3)) shapeCasts_S128_S1x128))) (m ((c : Thread nD τ).loc main_arg4)))) (shapeCast S1x128 (m ((c : Thread nD τ).loc main_arg5)) shapeCasts_S128_S1x128))) := by
  refine (W9_arr m ρ c 2).trans ((Cert.KernelIdeal.Region3.final (V8 m ρ) c).trans ?_)
  show relu (addRow (W8 m ρ c (Proc.devRef .tc main_v61)) (W8 m ρ c (Proc.devRef .tc main_v62))) = _
  rw [L5, W8_v62, kept_arg5_7]

theorem L7 : W10 m ρ c (Proc.devRef .tc main_v64) = (mm (relu (addRow (agg (F := Ideal) (srcOf (F := Ideal) (m ((c : Thread nD τ).loc main_arg1))) (dstOf (F := Ideal) (m ((c : Thread nD τ).loc main_arg1))) (normOf (F := Ideal) (srcOf (F := Ideal) (m ((c : Thread nD τ).loc main_arg1))) (dstOf (F := Ideal) (m ((c : Thread nD τ).loc main_arg1)))) (mm (relu (addRow (agg (F := Ideal) (srcOf (F := Ideal) (m ((c : Thread nD τ).loc main_arg1))) (dstOf (F := Ideal) (m ((c : Thread nD τ).loc main_arg1))) (normOf (F := Ideal) (srcOf (F := Ideal) (m ((c : Thread nD τ).loc main_arg1))) (dstOf (F := Ideal) (m ((c : Thread nD τ).loc main_arg1)))) (mm (m ((c : Thread nD τ).loc main_arg0)) (m ((c : Thread nD τ).loc main_arg2)))) (shapeCast S1x128 (m ((c : Thread nD τ).loc main_arg3)) shapeCasts_S128_S1x128))) (m ((c : Thread nD τ).loc main_arg4)))) (shapeCast S1x128 (m ((c : Thread nD τ).loc main_arg5)) shapeCasts_S128_S1x128))) (m ((c : Thread nD τ).loc main_arg6))) := by
  refine (W10_arr m ρ c 2).trans ((Cert.KernelIdeal.Region4.final (V9 m ρ) c).trans ?_)
  show mm (W9 m ρ c (Proc.devRef .tc main_v63)) (W9 m ρ c (Proc.devRef .tc main_arg6)) = _
  rw [L6, kept_arg6_9]

theorem L8 : W11 m ρ c (Proc.devRef .tc main_v77) = (agg (F := Ideal) (srcOf (F := Ideal) (m ((c : Thread nD τ).loc main_arg1))) (dstOf (F := Ideal) (m ((c : Thread nD τ).loc main_arg1))) (normOf (F := Ideal) (srcOf (F := Ideal) (m ((c : Thread nD τ).loc main_arg1))) (dstOf (F := Ideal) (m ((c : Thread nD τ).loc main_arg1)))) (mm (relu (addRow (agg (F := Ideal) (srcOf (F := Ideal) (m ((c : Thread nD τ).loc main_arg1))) (dstOf (F := Ideal) (m ((c : Thread nD τ).loc main_arg1))) (normOf (F := Ideal) (srcOf (F := Ideal) (m ((c : Thread nD τ).loc main_arg1))) (dstOf (F := Ideal) (m ((c : Thread nD τ).loc main_arg1)))) (mm (relu (addRow (agg (F := Ideal) (srcOf (F := Ideal) (m ((c : Thread nD τ).loc main_arg1))) (dstOf (F := Ideal) (m ((c : Thread nD τ).loc main_arg1))) (normOf (F := Ideal) (srcOf (F := Ideal) (m ((c : Thread nD τ).loc main_arg1))) (dstOf (F := Ideal) (m ((c : Thread nD τ).loc main_arg1)))) (mm (m ((c : Thread nD τ).loc main_arg0)) (m ((c : Thread nD τ).loc main_arg2)))) (shapeCast S1x128 (m ((c : Thread nD τ).loc main_arg3)) shapeCasts_S128_S1x128))) (m ((c : Thread nD τ).loc main_arg4)))) (shapeCast S1x128 (m ((c : Thread nD τ).loc main_arg5)) shapeCasts_S128_S1x128))) (m ((c : Thread nD τ).loc main_arg6)))) := by
  rw [W11_v77, kept_v3_10, kept_v6_10, kept_v31_10, W3_v3, W3_v6, W3_v31, L7]

theorem L9 : W12 m ρ c (Proc.devRef .tc main_v79) = (addRow (agg (F := Ideal) (srcOf (F := Ideal) (m ((c : Thread nD τ).loc main_arg1))) (dstOf (F := Ideal) (m ((c : Thread nD τ).loc main_arg1))) (normOf (F := Ideal) (srcOf (F := Ideal) (m ((c : Thread nD τ).loc main_arg1))) (dstOf (F := Ideal) (m ((c : Thread nD τ).loc main_arg1)))) (mm (relu (addRow (agg (F := Ideal) (srcOf (F := Ideal) (m ((c : Thread nD τ).loc main_arg1))) (dstOf (F := Ideal) (m ((c : Thread nD τ).loc main_arg1))) (normOf (F := Ideal) (srcOf (F := Ideal) (m ((c : Thread nD τ).loc main_arg1))) (dstOf (F := Ideal) (m ((c : Thread nD τ).loc main_arg1)))) (mm (relu (addRow (agg (F := Ideal) (srcOf (F := Ideal) (m ((c : Thread nD τ).loc main_arg1))) (dstOf (F := Ideal) (m ((c : Thread nD τ).loc main_arg1))) (normOf (F := Ideal) (srcOf (F := Ideal) (m ((c : Thread nD τ).loc main_arg1))) (dstOf (F := Ideal) (m ((c : Thread nD τ).loc main_arg1)))) (mm (m ((c : Thread nD τ).loc main_arg0)) (m ((c : Thread nD τ).loc main_arg2)))) (shapeCast S1x128 (m ((c : Thread nD τ).loc main_arg3)) shapeCasts_S128_S1x128))) (m ((c : Thread nD τ).loc main_arg4)))) (shapeCast S1x128 (m ((c : Thread nD τ).loc main_arg5)) shapeCasts_S128_S1x128))) (m ((c : Thread nD τ).loc main_arg6)))) (shapeCast S1x128 (m ((c : Thread nD τ).loc main_arg7)) shapeCasts_S128_S1x128)) := by
  refine (W12_arr m ρ c 2).trans ((Cert.KernelIdeal.Region5.final (V11 m ρ) c).trans ?_)
  show addRow (W11 m ρ c (Proc.devRef .tc main_v77)) (W11 m ρ c (Proc.devRef .tc main_v78)) = _
  rw [L8, W11_v78, kept_arg7_10]

/-- The result array at the last boundary: the head's product of the third layer's output, plus its bias row. -/
theorem L10 : W14 m ρ c (Proc.devRef .tc main_v81) = (addRow (mm (addRow (agg (F := Ideal) (srcOf (F := Ideal) (m ((c : Thread nD τ).loc main_arg1))) (dstOf (F := Ideal) (m ((c : Thread nD τ).loc main_arg1))) (normOf (F := Ideal) (srcOf (F := Ideal) (m ((c : Thread nD τ).loc main_arg1))) (dstOf (F := Ideal) (m ((c : Thread nD τ).loc main_arg1)))) (mm (relu (addRow (agg (F := Ideal) (srcOf (F := Ideal) (m ((c : Thread nD τ).loc main_arg1))) (dstOf (F := Ideal) (m ((c : Thread nD τ).loc main_arg1))) (normOf (F := Ideal) (srcOf (F := Ideal) (m ((c : Thread nD τ).loc main_arg1))) (dstOf (F := Ideal) (m ((c : Thread nD τ).loc main_arg1)))) (mm (relu (addRow (agg (F := Ideal) (srcOf (F := Ideal) (m ((c : Thread nD τ).loc main_arg1))) (dstOf (F := Ideal) (m ((c : Thread nD τ).loc main_arg1))) (normOf (F := Ideal) (srcOf (F := Ideal) (m ((c : Thread nD τ).loc main_arg1))) (dstOf (F := Ideal) (m ((c : Thread nD τ).loc main_arg1)))) (mm (m ((c : Thread nD τ).loc main_arg0)) (m ((c : Thread nD τ).loc main_arg2)))) (shapeCast S1x128 (m ((c : Thread nD τ).loc main_arg3)) shapeCasts_S128_S1x128))) (m ((c : Thread nD τ).loc main_arg4)))) (shapeCast S1x128 (m ((c : Thread nD τ).loc main_arg5)) shapeCasts_S128_S1x128))) (m ((c : Thread nD τ).loc main_arg6)))) (shapeCast S1x128 (m ((c : Thread nD τ).loc main_arg7)) shapeCasts_S128_S1x128)) (m ((c : Thread nD τ).loc main_arg8))) (shapeCast S1x64 (m ((c : Thread nD τ).loc main_arg9)) shapeCasts_S64_S1x64)) := by
  refine (W14_arr m ρ c 3).trans ((Cert.KernelIdeal.Region6.final (V13 m ρ) c).trans ?_)
  show addRow (mm (W13 m ρ c (Proc.devRef .tc main_v79)) (W13 m ρ c (Proc.devRef .tc main_arg8))) (W13 m ρ c (Proc.devRef .tc main_v80)) = _
  rw [W13_v79, L9, kept_arg8_13, W13_v80, kept_arg9_12]

/-- The result array is the network over the layer functions, of the arguments as launched. -/
theorem value : W14 m ρ c (Proc.devRef .tc main_v81)
    = netSpec (m ((c : Thread nD τ).loc main_arg0)) (m ((c : Thread nD τ).loc main_arg1)) (m ((c : Thread nD τ).loc main_arg2)) (shapeCast S1x128 (m ((c : Thread nD τ).loc main_arg3)) shapeCasts_S128_S1x128) (m ((c : Thread nD τ).loc main_arg4)) (shapeCast S1x128 (m ((c : Thread nD τ).loc main_arg5)) shapeCasts_S128_S1x128) (m ((c : Thread nD τ).loc main_arg6)) (shapeCast S1x128 (m ((c : Thread nD τ).loc main_arg7)) shapeCasts_S128_S1x128) (m ((c : Thread nD τ).loc main_arg8)) (shapeCast S1x64 (m ((c : Thread nD τ).loc main_arg9)) shapeCasts_S64_S1x64) :=
  L10 m ρ c

end Cert.KernelIdeal.Chain

end
-- ==== Proof.lean ====
/-
  A three-layer graph convolution network with a linear head, computed two ways, equal on the extended reals.
  Both programs build the same edge list (the given edges and one self loop per node), the same per-node inverse
  square-root degree and the same per-edge weight, and both aggregate a node array by gathering its rows at the edge
  sources, scaling by the edge weights and summing into the destinations. The kernel program computes each layer's
  dense parts in pipelined launches over twenty blocks of 5000 rows — the product with the weight matrix (operands
  rounded to bf16 on the way in, which is the identity at the ideal values), and the bias row added with the positive
  part — where the reference uses one dot_general, one broadcast addition and one maximum on whole arrays. Entry by
  entry each launch's array is the layer function of the arrays it reads, the blocks tile the rows, and the host
  stretches between launches are the reference's own operations; so the two results are the same composition of the
  same functions of the arguments. No step needs the inputs to be finite: nothing is reordered or distributed.
  The frames are the programs' runs (the kernel programs' launch-by-launch frames; the reference's run with the
  result dropped), and the idealization rewrote no operation.
-/
import proofs.«141334_j10161892622615_1_alg».proof.Defs
import proofs.«141334_j10161892622615_1_alg».proof.Proof.Gen.Kernel
import proofs.«141334_j10161892622615_1_alg».proof.Proof.Gen.Kernel.Skeleton
import proofs.«141334_j10161892622615_1_alg».proof.Proof.Gen.Kernel.Launch
import proofs.«141334_j10161892622615_1_alg».proof.Proof.Gen.Kernel.Points
import proofs.«141334_j10161892622615_1_alg».proof.Proof.Gen.Kernel.Frame
import proofs.«141334_j10161892622615_1_alg».proof.Proof.Gen.KernelIdeal
import proofs.«141334_j10161892622615_1_alg».proof.Proof.Gen.KernelIdeal.Skeleton
import proofs.«141334_j10161892622615_1_alg».proof.Proof.Gen.KernelIdeal.Launch
import proofs.«141334_j10161892622615_1_alg».proof.Proof.Gen.KernelIdeal.Points
import proofs.«141334_j10161892622615_1_alg».proof.Proof.Gen.KernelIdeal.Frame
import proofs.«141334_j10161892622615_1_alg».proof.Proof.Gen.ReferenceIdeal
import proofs.«141334_j10161892622615_1_alg».proof.Proof.Gen.Pre_finite_inputs
import proofs.«141334_j10161892622615_1_alg».proof.Proof.KernelRun
import proofs.«141334_j10161892622615_1_alg».proof.Proof.KernelValue
import proofs.«141334_j10161892622615_1_alg».proof.Proof.RefRun
import proofs.«141334_j10161892622615_1_alg».proof.Proof.RefLayers
import proofs.«141334_j10161892622615_1_alg».proof.Proof.RefForms
import Idealize.ShloMosaic.Lib.ValueLayout
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- The kernel program's result array (the network over the layer functions, by the launches' value lemmas) and the
    reference's result term (the same network, its host operations read as the layer functions) are one function of
    arguments that agree: the bias rows the kernel reshapes to one-row arrays hold the bias vectors' entries. -/
theorem algebraic : Cert.algebraic_KernelIdeal_ReferenceIdeal := by
  intro m ρ m' ρ' _ hagree
  refine ⟨fun c => Cert.KernelIdeal.Gen.W14 m ρ c (Proc.devRef .tc Cert.KernelIdeal.main_v81), Cert.KernelIdeal.RunValue.run_named m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5, a6, a7, a8, a9⟩ := hagree c
  rw [Cert.ReferenceIdeal.Layers.res_eq_net, a0, a1, a2, a3, a4, a5, a6, a7, a8, a9]
  refine Eq.trans ?_ (Cert.KernelIdeal.Chain.value m ρ c).symm
  exact Cert.ReferenceIdeal.Layers.net_eq_netSpec _ _ _ _ _ _ _ _ _ _ _ _ _ _
    (fun q => shapeCast_a_1a_apply _ Cert.KernelIdeal.Gen.shapeCasts_S128_S1x128 0 q)
    (fun q => shapeCast_a_1a_apply _ Cert.KernelIdeal.Gen.shapeCasts_S128_S1x128 0 q)
    (fun q => shapeCast_a_1a_apply _ Cert.KernelIdeal.Gen.shapeCasts_S128_S1x128 0 q)
    (fun q => shapeCast_a_1a_apply _ Cert.KernelIdeal.Gen.shapeCasts_S64_S1x64 0 q)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
